-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S1x16 : Shape := ⟨2, ![1, 16]⟩
abbrev S10000x16 : Shape := ⟨2, ![10000, 16]⟩
abbrev S400x10000 : Shape := ⟨2, ![400, 10000]⟩
abbrev S400x64 : Shape := ⟨2, ![400, 64]⟩
abbrev S400x16 : Shape := ⟨2, ![400, 16]⟩
abbrev S400 : Shape := ⟨1, ![400]⟩
abbrev S400x1 : Shape := ⟨2, ![400, 1]⟩

abbrev nBuf : Space → Nat
  | .hbm => 19
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S128x64, .bf16⟩
  | .hbm, ⟨9, _⟩ => ⟨S64x64, .bf16⟩
  | .hbm, ⟨10, _⟩ => ⟨S64x16, .bf16⟩
  | .hbm, ⟨11, _⟩ => ⟨S10000x64, .bf16⟩
  | .hbm, ⟨12, _⟩ => ⟨S1x64, .f32⟩
  | .hbm, ⟨13, _⟩ => ⟨S1x64, .f32⟩
  | .hbm, ⟨14, _⟩ => ⟨S1x16, .f32⟩
  | .hbm, ⟨15, _⟩ => ⟨S10000x64, .bf16⟩
  | .hbm, ⟨16, _⟩ => ⟨S10000x10000, .bf16⟩
  | .hbm, ⟨17, _⟩ => ⟨S10000x16, .bf16⟩
  | .hbm, ⟨18, _⟩ => ⟨S10000x16, .f32⟩
  | .local _ .vmem, ⟨0, _⟩ => ⟨S10000x128, .f32⟩
  | .local _ .vmem, ⟨1, _⟩ => ⟨S128x64, .bf16⟩
  | .local _ .vmem, ⟨2, _⟩ => ⟨S10000x64, .bf16⟩
  | .local _ .vmem, ⟨3, _⟩ => ⟨S400x10000, .f32⟩
  | .local _ .vmem, ⟨4, _⟩ => ⟨S400x10000, .f32⟩
  | .local _ .vmem, ⟨5, _⟩ => ⟨S10000x64, .bf16⟩
  | .local _ .vmem, ⟨6, _⟩ => ⟨S1x64, .f32⟩
  | .local _ .vmem, ⟨7, _⟩ => ⟨S64x64, .bf16⟩
  | .local _ .vmem, ⟨8, _⟩ => ⟨S400x64, .bf16⟩
  | .local _ .vmem, ⟨9, _⟩ => ⟨S400x64, .bf16⟩
  | .local _ .vmem, ⟨10, _⟩ => ⟨S400x10000, .bf16⟩
  | .local _ .vmem, ⟨11, _⟩ => ⟨S400x10000, .bf16⟩
  | .local _ .vmem, ⟨12, _⟩ => ⟨S400x10000, .bf16⟩
  | .local _ .vmem, ⟨13, _⟩ => ⟨S400x10000, .bf16⟩
  | .local _ .vmem, ⟨14, _⟩ => ⟨S10000x64, .bf16⟩
  | .local _ .vmem, ⟨15, _⟩ => ⟨S1x64, .f32⟩
  | .local _ .vmem, ⟨16, _⟩ => ⟨S64x16, .bf16⟩
  | .local _ .vmem, ⟨17, _⟩ => ⟨S400x16, .bf16⟩
  | .local _ .vmem, ⟨18, _⟩ => ⟨S400x16, .bf16⟩
  | .local _ .vmem, ⟨19, _⟩ => ⟨S400x10000, .bf16⟩
  | .local _ .vmem, ⟨20, _⟩ => ⟨S400x10000, .bf16⟩
  | .local _ .vmem, ⟨21, _⟩ => ⟨S10000x16, .bf16⟩
  | .local _ .vmem, ⟨22, _⟩ => ⟨S1x16, .f32⟩
  | .local _ .vmem, ⟨23, _⟩ => ⟨S400x16, .f32⟩
  | .local _ .vmem, ⟨24, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7_0 : Ref sig .tc := ⟨.hbm, 15, rfl⟩
abbrev main_call0_v7_1 : Ref sig .tc := ⟨.hbm, 16, rfl⟩
abbrev main_call0_v8 : Ref sig .tc := ⟨.hbm, 17, rfl⟩
abbrev main_v0 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x16 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x16 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  shapeCasts_S64_S1x64 : S64.ShapeCasts S1x64
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  shapeCasts_S400x10000_S400x10000 : S400x10000.ShapeCasts S400x10000
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S400x16_S400x16_0_0 : ∀ a, (![0, 0] : Fin 2 → Nat) a + S400x16.size a ≤ S400x16.size a
  h_S400x16 : 0 < S400x16.numel
  packedbf16_S400x16_S400x16_0_0 : (Rect.unit (s := S400x16) ![0, 0] S400x16.size inb_S400x16_S400x16_0_0).PackedRows (EltTy.packing .bf16)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  reduces_S400x16_S400 : S400x16.Reduces [1] S400
  shapeCasts_S400_S400x1 : S400.ShapeCasts S400x1
  broadcasts_S400x1_S400x16 : S400x1.Broadcasts S400x16
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S400x64_S64x16_S400x16_1_0_0_1_n_n_wf : DotDims.WF S400x64 S64x16 S400x16 [1] [0] [0] [1] [] []
  dot_S400x10000_S10000x16_S400x16_1_0_0_1_n_n_wf : DotDims.WF S400x10000 S10000x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .bf16 = 32 ∨ (Rect.block (s := S10000x64) S400x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x10000.size a ≤ S10000x10000.size a
  hwx1_5 : ∀ i : grid1.Coords, EltTy.bits .bf16 = 32 ∨ (Rect.block (s := S10000x10000) S400x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .bf16 = 32 ∨ (Rect.block (s := S64x16) S64x16.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .bf16 = 32 ∨ (Rect.block (s := S10000x16) S400x16.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .bf16 = 32 ∨ (Rect.block (s := S10000x16) S10000x16.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x16.size a ≤ S10000x16.size a
  hwx3_3 : ∀ i : grid3.Coords, EltTy.bits .f32 = 32 ∨ (Rect.block (s := S10000x16) S400x16.size (cc3_transform_3 i) (hinb3_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_call0_v0) false false (stage0_1 0) (sem0_1 0) (Memref.isWhole_whole _) (hstage0_1 0)

abbrev win0_2 : Pipeline.Window sig grid0 :=
  Pipeline.Window.whole (Memref.whole main_call0_v3) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v7_0) S400x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v7_1) S400x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v7_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v7_0) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v5) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v2) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v8) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v7_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v8) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v6) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S400x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x16, .f32⟩
  | .hbm, ⟨25, _⟩ => ⟨S10000x16, .f32⟩
  | .hbm, ⟨26, _⟩ => ⟨S1x16, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x16, .f32⟩
  | .hbm, ⟨36, _⟩ => ⟨S10000x16, .f32⟩
  | .hbm, ⟨37, _⟩ => ⟨S10000x16, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x16, .f32⟩
  | .hbm, ⟨43, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_call0_cst_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_cst_1 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_v19 : Ref sig .tc := ⟨.hbm, 43, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Spec.lean ====
/-
  The mathematics both programs compute, on the extended reals, index by index.

  Three graph-convolution layers over a dense adjacency `adj` (10000 × 10000) and a row-wise log-softmax:
    s₁ = x · W₁,   s₂ = relu (adj · s₁ + b₁) · W₂,   s₃ = relu (adj · s₂ + b₂) · W₃,   h = adj · s₃ + b₃,
  each product a finite sum over the contracted coordinate, each bias added along the rows. The two programs associate the
  products in the same way (the adjacency always multiplies an already projected matrix), so up to `h` they are the same
  sums. They differ in how they arrange the log-softmax of a row with maximum `M` and `L = log Σⱼ exp (hⱼ − M)`:
  one writes `hⱼ − (L + M)`, the other `(hⱼ − M) − L`. On the extended reals these agree when `hⱼ` and `M` are finite
  (Algebra.lean), which is where the finiteness of the inputs is used.
-/
import Idealize.ShloMosaic.PureOps.Ideal
import Idealize.ShloMosaic.Lib.ValueIdx

noncomputable section

namespace Cert.Gcn

open Idealize.ShloMosaic Idealize.ShloMosaic.ValueIdx

/-- A matrix of extended reals with the given numbers of rows and columns. -/
abbrev Mat (a b : Nat) : Type := (⟨2, ![a, b]⟩ : Shape).Idx → EReal

/-- The float zero, as both programs spell it. -/
abbrev zeroF : EReal := Ideal.ofBits .f32 0x00000000#32
/-- The float minus infinity, as both programs spell it (the value a row maximum starts from). -/
abbrev negInfF : EReal := Ideal.ofBits .f32 0xFF800000#32

/-- The matrix with entry `f r j` in row `r`, column `j`. -/
def ofEntries {a b : Nat} (f : Fin a → Fin b → EReal) : Mat a b :=
  fun i => f ⟨(i 0).val, idx2_lt0 i⟩ ⟨(i 1).val, idx2_lt1 i⟩

theorem ofEntries_ix2 {a b : Nat} (f : Fin a → Fin b → EReal) (r : Fin a) (j : Fin b) : ofEntries f (ix2 r j) = f r j := rfl

/-- The first projection `x · W₁`. -/
def xw (x : Mat 10000 128) (w : Mat 128 64) : Mat 10000 64 :=
  ofEntries fun r j => ∑ k : Fin 128, x (ix2 r k) * w (ix2 k j)

/-- One entry of a hidden layer: `relu ((adj · s) r k + b k)`. -/
def hidden (adj : Mat 10000 10000) (s : Mat 10000 64) (b : Fin 64 → EReal) (r : Fin 10000) (k : Fin 64) : EReal :=
  max (∑ l : Fin 10000, adj (ix2 r l) * s (ix2 l k) + b k) zeroF

/-- A hidden layer followed by the next projection: `relu (adj · s + b) · W`. -/
def layer {n : Nat} (adj : Mat 10000 10000) (s : Mat 10000 64) (b : Fin 64 → EReal) (w : Mat 64 n) : Mat 10000 n :=
  ofEntries fun r j => ∑ k : Fin 64, hidden adj s b r k * w (ix2 k j)

/-- The last layer before the softmax: `adj · s + b`. -/
def logits (adj : Mat 10000 10000) (s : Mat 10000 16) (b : Fin 16 → EReal) : Mat 10000 16 :=
  ofEntries fun r j => ∑ l : Fin 10000, adj (ix2 r l) * s (ix2 l j) + b j

/-- The three layers: the matrix whose rows the log-softmax normalises. -/
def net (x : Mat 10000 128) (adj : Mat 10000 10000) (w1 : Mat 128 64) (b1 : Fin 64 → EReal) (w2 : Mat 64 64) (b2 : Fin 64 → EReal)
    (w3 : Mat 64 16) (b3 : Fin 16 → EReal) : Mat 10000 16 :=
  logits adj (layer adj (layer adj (xw x w1) b1 w2) b2 w3) b3

/-- The maximum of row `r`, folded from minus infinity. -/
def rowMax (h : Mat 10000 16) (r : Fin 10000) : EReal :=
  (Finset.univ : Finset (Fin 16)).fold max negInfF (fun j => h (ix2 r j))

/-- `log Σⱼ exp (h r j − M)`. -/
def rowLse (h : Mat 10000 16) (M : EReal) (r : Fin 10000) : EReal :=
  Ideal.log (∑ j : Fin 16, Ideal.exp (h (ix2 r j) - M))

/-- The log-softmax of each row, written `h − (L + M)`. -/
def logSoftmaxK (h : Mat 10000 16) : Mat 10000 16 :=
  ofEntries fun r j => h (ix2 r j) - (rowLse h (rowMax h r) r + rowMax h r)

/-- The log-softmax of each row, written `(h − M) − L`. -/
def logSoftmaxR (h : Mat 10000 16) : Mat 10000 16 :=
  ofEntries fun r j => (h (ix2 r j) - rowMax h r) - rowLse h (rowMax h r) r

end Cert.Gcn

end
-- ==== Proof.RefValue.lean ====
/-
  The reference program's result, read index by index, is the specification: the value its last operation writes is the
  row-wise log-softmax `(h − M) − L` of the three-layer network `h = net …` of Spec.lean.

  The reading goes layer by layer. Each matrix product of the program is, at an index `(r, j)`, the finite sum over the
  contracted coordinate; a bias is broadcast twice (vector → one row → all rows), so at `(r, j)` it is the bias's entry `j`;
  the rectifier is the maximum with a broadcast zero. The row maximum is a fold of `max` over the sixteen columns started
  from minus infinity, and the further maximum with a broadcast minus infinity changes nothing, a fold of `max` being at
  least its starting value. The sum of exponentials starts from the float zero, which is the real zero.
-/
import proofs.«179112_g29712583753982_cont_8to1_b_47_12_alg».proof.Proof.Spec
import proofs.«179112_g29712583753982_cont_8to1_b_47_12_alg».proof.Proof.RefRead
import Idealize.ShloMosaic.PureOps.Reduce
import Idealize.ShloMosaic.PureOps.Ideal.Laws

noncomputable section

namespace Cert.Gcn

open Cert.ReferenceIdeal Cert.ReferenceIdeal.Read Idealize.ShloMosaic Idealize.ShloMosaic.ValueIdx

section Stages

variable (x0 : (⟨S10000x128, .f32⟩ : BufTy).Contents (Elt Ideal)) (x1 : (⟨S10000x10000, .f32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x16, .f32⟩ : BufTy).Contents (Elt Ideal)) (x7 : (⟨S16, .f32⟩ : BufTy).Contents (Elt Ideal))

/-- The first projection: `x · W₁` entry by entry. -/
theorem ref_v0 : val_main_v0 (F := Ideal) x0 x2 = xw x0 x2 := by
  funext i
  obtain ⟨r, j, rfl⟩ : ∃ (r : Fin 10000) (j : Fin 64), i = ix2 r j := ⟨i 0, i 1, eq_ix2 i⟩
  refine (val_main_v0_apply x0 x2 (ix2 r j)).trans ?_
  show _ = ∑ k : Fin 128, x0 (ix2 r k) * x2 (ix2 k j)
  refine Finset.sum_congr rfl fun k _ => ?_
  have el : lidx_main_v0 (ix2 r j) k = ix2 r k := funext fun a => Fin.ext (by match a with | ⟨0, _⟩ => rfl | ⟨1, _⟩ => rfl)
  have er : ridx_main_v0 (ix2 r j) k = ix2 k j := funext fun a => Fin.ext (by match a with | ⟨0, _⟩ => rfl | ⟨1, _⟩ => rfl)
  rw [el, er]

/-- An entry of the first hidden layer: the product with the adjacency, the broadcast bias, the maximum with zero. -/
theorem ref_v6_ix2 (r : Fin 10000) (k : Fin 64) :
    val_main_v6 (F := Ideal) x0 x1 x2 x3 (ix2 r k)
      = hidden x1 (val_main_v0 (F := Ideal) x0 x2) (fun k => x3 (ix1 k)) r k := by
  rw [val_main_v6_apply, val_main_v4_apply, val_main_v1_apply, val_main_v3_apply, val_main_v2_apply, val_main_v5_apply,
    val_main_cst_apply]
  generalize val_main_v0 (F := Ideal) x0 x2 = s
  have e3 : idx_main_v2 (idx_main_v3 (ix2 r k)) = ix1 k := funext fun a => Fin.ext (by match a with | ⟨0, _⟩ => rfl)
  rw [e3]
  refine congrArg (fun t => max (t + x3 (ix1 k)) zeroF) (Finset.sum_congr rfl fun l _ => ?_)
  have el : lidx_main_v1 (ix2 r k) l = ix2 r l := funext fun a => Fin.ext (by match a with | ⟨0, _⟩ => rfl | ⟨1, _⟩ => rfl)
  have er : ridx_main_v1 (ix2 r k) l = ix2 l k := funext fun a => Fin.ext (by match a with | ⟨0, _⟩ => rfl | ⟨1, _⟩ => rfl)
  rw [el, er]

/-- The first hidden layer followed by the second projection. -/
theorem ref_v7 : val_main_v7 (F := Ideal) x0 x1 x2 x3 x4
    = layer x1 (val_main_v0 (F := Ideal) x0 x2) (fun k => x3 (ix1 k)) x4 := by
  funext i
  obtain ⟨r, j, rfl⟩ : ∃ (r : Fin 10000) (j : Fin 64), i = ix2 r j := ⟨i 0, i 1, eq_ix2 i⟩
  refine (val_main_v7_apply x0 x1 x2 x3 x4 (ix2 r j)).trans ?_
  show _ = ∑ k : Fin 64, hidden x1 (val_main_v0 (F := Ideal) x0 x2) (fun k => x3 (ix1 k)) r k * x4 (ix2 k j)
  refine Finset.sum_congr rfl fun k _ => ?_
  have el : lidx_main_v7 (ix2 r j) k = ix2 r k := funext fun a => Fin.ext (by match a with | ⟨0, _⟩ => rfl | ⟨1, _⟩ => rfl)
  have er : ridx_main_v7 (ix2 r j) k = ix2 k j := funext fun a => Fin.ext (by match a with | ⟨0, _⟩ => rfl | ⟨1, _⟩ => rfl)
  rw [el, er, ref_v6_ix2]

/-- An entry of the second hidden layer. -/
theorem ref_v13_ix2 (r : Fin 10000) (k : Fin 64) :
    val_main_v13 (F := Ideal) x0 x1 x2 x3 x4 x5 (ix2 r k)
      = hidden x1 (val_main_v7 (F := Ideal) x0 x1 x2 x3 x4) (fun k => x5 (ix1 k)) r k := by
  rw [val_main_v13_apply, val_main_v11_apply, val_main_v8_apply, val_main_v10_apply, val_main_v9_apply, val_main_v12_apply,
    val_main_cst_0_apply]
  generalize val_main_v7 (F := Ideal) x0 x1 x2 x3 x4 = s
  have e3 : idx_main_v9 (idx_main_v10 (ix2 r k)) = ix1 k := funext fun a => Fin.ext (by match a with | ⟨0, _⟩ => rfl)
  rw [e3]
  refine congrArg (fun t => max (t + x5 (ix1 k)) zeroF) (Finset.sum_congr rfl fun l _ => ?_)
  have el : lidx_main_v8 (ix2 r k) l = ix2 r l := funext fun a => Fin.ext (by match a with | ⟨0, _⟩ => rfl | ⟨1, _⟩ => rfl)
  have er : ridx_main_v8 (ix2 r k) l = ix2 l k := funext fun a => Fin.ext (by match a with | ⟨0, _⟩ => rfl | ⟨1, _⟩ => rfl)
  rw [el, er]

/-- The second hidden layer followed by the third projection. -/
theorem ref_v14 : val_main_v14 (F := Ideal) x0 x1 x2 x3 x4 x5 x6
    = layer x1 (val_main_v7 (F := Ideal) x0 x1 x2 x3 x4) (fun k => x5 (ix1 k)) x6 := by
  funext i
  obtain ⟨r, j, rfl⟩ : ∃ (r : Fin 10000) (j : Fin 16), i = ix2 r j := ⟨i 0, i 1, eq_ix2 i⟩
  refine (val_main_v14_apply x0 x1 x2 x3 x4 x5 x6 (ix2 r j)).trans ?_
  show _ = ∑ k : Fin 64, hidden x1 (val_main_v7 (F := Ideal) x0 x1 x2 x3 x4) (fun k => x5 (ix1 k)) r k * x6 (ix2 k j)
  refine Finset.sum_congr rfl fun k _ => ?_
  have el : lidx_main_v14 (ix2 r j) k = ix2 r k := funext fun a => Fin.ext (by match a with | ⟨0, _⟩ => rfl | ⟨1, _⟩ => rfl)
  have er : ridx_main_v14 (ix2 r j) k = ix2 k j := funext fun a => Fin.ext (by match a with | ⟨0, _⟩ => rfl | ⟨1, _⟩ => rfl)
  rw [el, er, ref_v13_ix2]

/-- The last layer: the product with the adjacency plus the broadcast bias. -/
theorem ref_v18 : val_main_v18 (F := Ideal) x0 x1 x2 x3 x4 x5 x6 x7
    = logits x1 (val_main_v14 (F := Ideal) x0 x1 x2 x3 x4 x5 x6) (fun k => x7 (ix1 k)) := by
  funext i
  obtain ⟨r, j, rfl⟩ : ∃ (r : Fin 10000) (j : Fin 16), i = ix2 r j := ⟨i 0, i 1, eq_ix2 i⟩
  rw [val_main_v18_apply, val_main_v15_apply, val_main_v17_apply, val_main_v16_apply]
  generalize val_main_v14 (F := Ideal) x0 x1 x2 x3 x4 x5 x6 = s
  have e3 : idx_main_v16 (idx_main_v17 (ix2 r j)) = ix1 j := funext fun a => Fin.ext (by match a with | ⟨0, _⟩ => rfl)
  rw [e3]
  refine congrArg (fun t => t + x7 (ix1 j)) (Finset.sum_congr rfl fun l _ => ?_)
  have el : lidx_main_v15 (ix2 r j) l = ix2 r l := funext fun a => Fin.ext (by match a with | ⟨0, _⟩ => rfl | ⟨1, _⟩ => rfl)
  have er : ridx_main_v15 (ix2 r j) l = ix2 l j := funext fun a => Fin.ext (by match a with | ⟨0, _⟩ => rfl | ⟨1, _⟩ => rfl)
  rw [el, er]

/-- A fold of `max` is at least its starting value, so a further maximum with that value changes nothing. -/
theorem max_start_fold_max {ι : Type} (s : Finset ι) (a : EReal) (f : ι → EReal) :
    max a (s.fold max a f) = s.fold max a f :=
  max_eq_right ((Finset.le_fold_max a).2 (Or.inl le_rfl))

/-- The reduce-with-maximum over the columns, started from minus infinity, is the row maximum of Spec.lean. -/
theorem reduce_max_row (h : S10000x16.Idx → Ideal .f32) (h' : S10000x16.ReducesTo [1] S10000)
    (hu : 0 < S_.numel) (r : Fin 10000) :
    Host.reduce (α := Ideal .f32) (FloatOps.maximumf (F := Ideal) (φ := .f32)) h (val_main_call0_cst (F := Ideal)) h' hu (ix1 r)
      = rowMax h r := by
  have hr : S10000x16.Reduces [1] S10000 := by decide
  rw [Host.reduce_eq_fold_single FloatOps.maximumf h _ h' hr hu]
  have hf : (h ∘ hr.lift (ix1 r)) = fun j : Fin 16 => h (ix2 r j) :=
    funext fun j => congrArg h (funext fun c => Fin.ext (by match c with | ⟨0, _⟩ => rfl | ⟨1, _⟩ => rfl))
  exact congrArg (fun f => Finset.fold max negInfF f (Finset.univ : Finset (Fin 16))) hf

/-- The program's row maximum (the reduce, then the maximum with a broadcast minus infinity) at row `r`. -/
theorem ref_call0_v2_ix1 (r : Fin 10000) :
    val_main_call0_v2 (F := Ideal) x0 x1 x2 x3 x4 x5 x6 x7 (ix1 r)
      = rowMax (val_main_v18 (F := Ideal) x0 x1 x2 x3 x4 x5 x6 x7) r := by
  rw [val_main_call0_v2_apply, val_main_call0_v1_apply, val_main_call0_cst_0_apply]
  unfold val_main_call0_v0
  generalize val_main_v18 (F := Ideal) x0 x1 x2 x3 x4 x5 x6 x7 = h
  rw [reduce_max_row h _ _ r]
  exact max_start_fold_max _ _ _

/-- The shifted row: `h − M` at `(r, j)`. -/
theorem ref_call0_v5_ix2 (r : Fin 10000) (j : Fin 16) :
    val_main_call0_v5 (F := Ideal) x0 x1 x2 x3 x4 x5 x6 x7 (ix2 r j)
      = val_main_v18 (F := Ideal) x0 x1 x2 x3 x4 x5 x6 x7 (ix2 r j)
        - rowMax (val_main_v18 (F := Ideal) x0 x1 x2 x3 x4 x5 x6 x7) r := by
  rw [val_main_call0_v5_apply, val_main_call0_v4_apply, val_main_call0_v3_apply]
  have e : idx_main_call0_v3 (idx_main_call0_v4 (ix2 r j)) = ix1 r := funext fun a => Fin.ext (by match a with | ⟨0, _⟩ => rfl)
  rw [e, ref_call0_v2_ix1]
  rfl

/-- The broadcast logarithm of the sum of exponentials of the shifted row. -/
theorem ref_call0_v10_ix2 (r : Fin 10000) (j : Fin 16) :
    val_main_call0_v10 (F := Ideal) x0 x1 x2 x3 x4 x5 x6 x7 (ix2 r j)
      = rowLse (val_main_v18 (F := Ideal) x0 x1 x2 x3 x4 x5 x6 x7)
          (rowMax (val_main_v18 (F := Ideal) x0 x1 x2 x3 x4 x5 x6 x7) r) r := by
  rw [val_main_call0_v10_apply, val_main_call0_v9_apply, val_main_call0_v8_apply]
  have e : idx_main_call0_v8 (idx_main_call0_v10 (ix2 r j)) = ix1 r := funext fun a => Fin.ext (by match a with | ⟨0, _⟩ => rfl)
  rw [e, val_main_call0_v7_apply, val_main_call0_cst_1_apply]
  show Ideal.log (Ideal.ofBits .f32 0x00000000#32 + _) = Ideal.log _
  rw [Ideal.ofBits_zero_f32, zero_add]
  refine congrArg Ideal.log (Finset.sum_congr rfl fun k _ => ?_)
  have ek : idx_main_call0_v7 (ix1 r) k = ix2 r k := funext fun a => Fin.ext (by match a with | ⟨0, _⟩ => rfl | ⟨1, _⟩ => rfl)
  rw [ek, val_main_call0_v6_apply, ref_call0_v5_ix2]
  rfl

/-- The program's result is the log-softmax `(h − M) − L` of the last layer. -/
theorem ref_v19 : val_main_v19 (F := Ideal) x0 x1 x2 x3 x4 x5 x6 x7
    = logSoftmaxR (val_main_v18 (F := Ideal) x0 x1 x2 x3 x4 x5 x6 x7) := by
  funext i
  obtain ⟨r, j, rfl⟩ : ∃ (r : Fin 10000) (j : Fin 16), i = ix2 r j := ⟨i 0, i 1, eq_ix2 i⟩
  rw [val_main_v19_apply, ref_call0_v5_ix2, ref_call0_v10_ix2]
  rfl

end Stages

open Cert.ReferenceIdeal Cert.ReferenceIdeal.Read Idealize.ShloMosaic Idealize.ShloMosaic.ValueIdx in
/-- The value the reference program returns is the specification's log-softmax of the network, as a function of the
    program's eight arguments. -/
theorem ref_value
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x16, .f32⟩ : BufTy).Contents (Elt Ideal)) (x7 : (⟨S16, .f32⟩ : BufTy).Contents (Elt Ideal)) :
    val_main_v19 (F := Ideal) x0 x1 x2 x3 x4 x5 x6 x7
      = logSoftmaxR (net x0 x1 x2 (fun k => x3 (ix1 k)) x4 (fun k => x5 (ix1 k)) x6 (fun k => x7 (ix1 k))) := by
  rw [ref_v19, ref_v18, ref_v14, ref_v7, ref_v0]
  rfl

end Cert.Gcn

end
-- ==== Proof.Algebra.lean ====
/-
  Algebra on the extended reals for the row-wise log-softmax, and finiteness of the three layers.

  (1) For real numbers a, M and ANY extended real L,   a − (L + M) = (a − M) − L.
      At L = ⊤ both sides are ⊥, at L = ⊥ both are ⊤, and at a real L it is the identity of real numbers.
      The maximum of a row of sixteen real entries, folded from minus infinity, is one of the entries, hence real;
      so the two arrangements of the log-softmax agree wherever the matrix has real entries.
  (2) Sums, products and maxima of real numbers are real, so every layer of the network maps real matrices to real
      matrices.
-/
import proofs.«179112_g29712583753982_cont_8to1_b_47_12_alg».proof.Proof.Spec
import Idealize.ShloMosaic.PureOps.Ideal.Laws

noncomputable section

namespace Cert.Gcn

open Idealize.ShloMosaic Idealize.ShloMosaic.ValueIdx

/-! ### The two float constants -/

theorem zeroF_eq : zeroF = 0 := Ideal.ofBits_zero_f32

theorem negInfF_eq : negInfF = ⊥ := by simp [negInfF, Ideal.ofBits, Ideal.ieee]

/-! ### Closure of the real numbers inside the extended reals -/

theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- The inclusion of the reals is monotone, so it commutes with `max`. -/
theorem coe_max_real (x y : ℝ) : max (x : EReal) (y : EReal) = ((max x y : ℝ) : EReal) :=
  (EReal.coe_strictMono.monotone.map_max).symm

theorem real_max {a b : EReal} (ha : ∃ r : ℝ, a = (r : EReal)) (hb : ∃ r : ℝ, b = (r : EReal)) :
    ∃ r : ℝ, max a b = (r : EReal) := by
  obtain ⟨x, rfl⟩ := ha
  obtain ⟨y, rfl⟩ := hb
  exact ⟨max x y, coe_max_real x y⟩

theorem real_zeroF : ∃ r : ℝ, zeroF = (r : EReal) := ⟨0, by rw [zeroF_eq, EReal.coe_zero]⟩

/-- A finite sum of real numbers is real. -/
theorem real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨x, hx⟩ := hf a (Finset.mem_insert_self a s)
    obtain ⟨y, hy⟩ := ih fun i hi => hf i (Finset.mem_insert_of_mem hi)
    exact ⟨x + y, by rw [Finset.sum_insert ha, hx, hy, EReal.coe_add]⟩

/-- The maximum of finitely many real numbers, folded from ⊥, is real as soon as there is at least one of them. -/
theorem real_fold_max {ι : Type} (s : Finset ι) (f : ι → EReal) (hf : ∀ i, ∃ r : ℝ, f i = (r : EReal)) :
    s = ∅ ∨ ∃ r : ℝ, s.fold max ⊥ f = (r : EReal) := by
  classical
  induction s using Finset.induction_on with
  | empty => exact Or.inl rfl
  | insert a s ha ih =>
    refine Or.inr ?_
    rw [Finset.fold_insert ha]
    rcases ih with h | h
    · subst h
      rw [Finset.fold_empty, max_eq_left bot_le]
      exact hf a
    · exact real_max (hf a) h

/-! ### The two arrangements of the log-softmax -/

/-- `a − (L + M) = (a − M) − L` for real `a`, `M` and any extended real `L`. -/
theorem sub_add_real (a M : ℝ) (L : EReal) :
    (a : EReal) - (L + (M : EReal)) = ((a : EReal) - (M : EReal)) - L := by
  induction L using EReal.rec with
  | bot => rw [EReal.bot_add, EReal.coe_sub_bot, ← EReal.coe_sub, EReal.coe_sub_bot]
  | coe l =>
    rw [← EReal.coe_add, ← EReal.coe_sub, ← EReal.coe_sub, ← EReal.coe_sub]
    congr 1
    ring
  | top => rw [EReal.top_add_coe, EReal.sub_top, EReal.sub_top]

/-- The maximum of a row of real entries is real. -/
theorem rowMax_finite (h : Mat 10000 16) (hfin : ∀ i, ∃ r : ℝ, h i = (r : EReal)) (r : Fin 10000) :
    ∃ M : ℝ, rowMax h r = (M : EReal) := by
  rw [rowMax, negInfF_eq]
  rcases real_fold_max (Finset.univ : Finset (Fin 16)) (fun j => h (ix2 r j)) (fun j => hfin (ix2 r j)) with h0 | h0
  · exact absurd h0 Finset.univ_nonempty.ne_empty
  · exact h0

theorem logSoftmaxK_eq_R (h : Mat 10000 16) (hfin : ∀ i, ∃ r : ℝ, h i = (r : EReal)) : logSoftmaxK h = logSoftmaxR h := by
  funext i
  obtain ⟨r, j, rfl⟩ : ∃ (r : Fin 10000) (j : Fin 16), i = ix2 r j := ⟨i 0, i 1, eq_ix2 i⟩
  simp only [logSoftmaxK, logSoftmaxR, ofEntries_ix2]
  obtain ⟨a, ha⟩ := hfin (ix2 r j)
  obtain ⟨M, hM⟩ := rowMax_finite h hfin r
  rw [ha, hM]
  exact sub_add_real a M _

/-! ### Every layer keeps the entries real -/

theorem xw_finite (x : Mat 10000 128) (w : Mat 128 64) (hx : ∀ i, ∃ r : ℝ, x i = (r : EReal))
    (hw : ∀ i, ∃ r : ℝ, w i = (r : EReal)) : ∀ i, ∃ r : ℝ, xw x w i = (r : EReal) := by
  intro i
  obtain ⟨r, j, rfl⟩ : ∃ (r : Fin 10000) (j : Fin 64), i = ix2 r j := ⟨i 0, i 1, eq_ix2 i⟩
  rw [xw, ofEntries_ix2]
  exact real_sum _ _ fun k _ => real_mul (hx _) (hw _)

theorem hidden_finite (adj : Mat 10000 10000) (s : Mat 10000 64) (b : Fin 64 → EReal)
    (hadj : ∀ i, ∃ r : ℝ, adj i = (r : EReal)) (hs : ∀ i, ∃ r : ℝ, s i = (r : EReal))
    (hb : ∀ k, ∃ r : ℝ, b k = (r : EReal)) (r : Fin 10000) (k : Fin 64) :
    ∃ t : ℝ, hidden adj s b r k = (t : EReal) := by
  rw [hidden]
  exact real_max (real_add (real_sum _ _ fun l _ => real_mul (hadj _) (hs _)) (hb k)) real_zeroF

theorem layer_finite {n : Nat} (adj : Mat 10000 10000) (s : Mat 10000 64) (b : Fin 64 → EReal) (w : Mat 64 n)
    (hadj : ∀ i, ∃ r : ℝ, adj i = (r : EReal)) (hs : ∀ i, ∃ r : ℝ, s i = (r : EReal))
    (hb : ∀ k, ∃ r : ℝ, b k = (r : EReal)) (hw : ∀ i, ∃ r : ℝ, w i = (r : EReal)) :
    ∀ i, ∃ r : ℝ, layer adj s b w i = (r : EReal) := by
  intro i
  obtain ⟨r, j, rfl⟩ : ∃ (r : Fin 10000) (j : Fin n), i = ix2 r j := ⟨i 0, i 1, eq_ix2 i⟩
  rw [layer, ofEntries_ix2]
  exact real_sum _ _ fun k _ => real_mul (hidden_finite adj s b hadj hs hb r k) (hw _)

theorem logits_finite (adj : Mat 10000 10000) (s : Mat 10000 16) (b : Fin 16 → EReal)
    (hadj : ∀ i, ∃ r : ℝ, adj i = (r : EReal)) (hs : ∀ i, ∃ r : ℝ, s i = (r : EReal))
    (hb : ∀ k, ∃ r : ℝ, b k = (r : EReal)) : ∀ i, ∃ r : ℝ, logits adj s b i = (r : EReal) := by
  intro i
  obtain ⟨r, j, rfl⟩ : ∃ (r : Fin 10000) (j : Fin 16), i = ix2 r j := ⟨i 0, i 1, eq_ix2 i⟩
  rw [logits, ofEntries_ix2]
  exact real_add (real_sum _ _ fun l _ => real_mul (hadj _) (hs _)) (hb j)

theorem net_finite (x : Mat 10000 128) (adj : Mat 10000 10000) (w1 : Mat 128 64) (b1 : Fin 64 → EReal) (w2 : Mat 64 64)
    (b2 : Fin 64 → EReal) (w3 : Mat 64 16) (b3 : Fin 16 → EReal)
    (hx : ∀ i, ∃ r : ℝ, x i = (r : EReal)) (hadj : ∀ i, ∃ r : ℝ, adj i = (r : EReal)) (hw1 : ∀ i, ∃ r : ℝ, w1 i = (r : EReal))
    (hb1 : ∀ k, ∃ r : ℝ, b1 k = (r : EReal)) (hw2 : ∀ i, ∃ r : ℝ, w2 i = (r : EReal)) (hb2 : ∀ k, ∃ r : ℝ, b2 k = (r : EReal))
    (hw3 : ∀ i, ∃ r : ℝ, w3 i = (r : EReal)) (hb3 : ∀ k, ∃ r : ℝ, b3 k = (r : EReal)) :
    ∀ i, ∃ r : ℝ, net x adj w1 b1 w2 b2 w3 b3 i = (r : EReal) := by
  rw [net]
  exact logits_finite adj _ b3 hadj
    (layer_finite adj _ b2 w3 hadj (layer_finite adj _ b1 w2 hadj (xw_finite x w1 hx hw1) hb1 hw2) hb2 hw3) hb3

end Cert.Gcn

end
-- ==== Proof.FiniteInputs.lean ====
/-
  The precondition says that every entry of every input is finite.

  The printed predicate computes, for each of the eight inputs, `all (|a| < +∞)` (an `and`-reduction over every axis of the
  entrywise comparison of `max a (−a)` with the float word of plus infinity) and takes the conjunction of the eight bits.
  If the result is 1, each of the eight reductions is 1, so each comparison is 1 at every index, i.e. `max a (−a) < ⊤`
  on the extended reals. That excludes `a = ⊤` and `a = ⊥` (where `max a (−a) = ⊤`), so the entry is a real number.
  Every step is a lemma applied at a symbolic index; no array is ever enumerated.
-/
import proofs.«179112_g29712583753982_cont_8to1_b_47_12_alg».proof.Pre_finite_inputs
import Idealize.ShloMosaic.Lib.ReduceAll
import Idealize.ShloMosaic.Lib.ValueIdx
import Idealize.ShloMosaic.PureOps.Ideal

noncomputable section

namespace Cert.Gcn

open Idealize.ShloMosaic

/-- The float word `0x7F800000` denotes plus infinity. -/
theorem posInf_eq : Ideal.ofBits .f32 0x7F800000#32 = (⊤ : EReal) := by simp [Ideal.ofBits, Ideal.ieee]

/-- An extended real whose absolute value `max x (−x)` compares strictly below plus infinity is a real number:
    at `x = ⊤` and at `x = ⊥` the absolute value is `⊤`, which is not below `⊤`. -/
theorem real_of_abs_lt (x : EReal)
    (h : Ideal.cmp .olt (max x (-x)) (Ideal.ofBits .f32 0x7F800000#32) = 1#1) : ∃ r : ℝ, x = (r : EReal) := by
  rw [posInf_eq] at h
  induction x using EReal.rec with
  | bot => simp [Ideal.cmp] at h
  | coe r => exact ⟨r, rfl⟩
  | top => simp [Ideal.cmp] at h

/-- The scalar shape has exactly one index. -/
instance : Subsingleton Cert.Pre_finite_inputs.S_.Idx := ⟨fun a b => funext fun d => d.elim0⟩

/-- One input: if the `and`-reduction of `|a| < +∞` over all axes is 1, every entry of `a` is real. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf a)
          (broadcastInDim s ![] hb (constant (F := Ideal) Cert.Pre_finite_inputs.S_ .f32 0x7F800000#32)))
        init hr hu j = 1#1) :
    ∀ i, ∃ r : ℝ, a i = (r : EReal) := fun i =>
  real_of_abs_lt (a i) (Host.reduce_andi_all _ init hr hu j e i)

theorem finite_of_pre [Cert.Pre_finite_inputs.Facts]
    (a0 : FVec Ideal Cert.Pre_finite_inputs.S10000x128 .f32) (a1 : FVec Ideal Cert.Pre_finite_inputs.S10000x10000 .f32)
    (a2 : FVec Ideal Cert.Pre_finite_inputs.S128x64 .f32) (a3 : FVec Ideal Cert.Pre_finite_inputs.S64 .f32)
    (a4 : FVec Ideal Cert.Pre_finite_inputs.S64x64 .f32) (a5 : FVec Ideal Cert.Pre_finite_inputs.S64 .f32)
    (a6 : FVec Ideal Cert.Pre_finite_inputs.S64x16 .f32) (a7 : FVec Ideal Cert.Pre_finite_inputs.S16 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) := by
  have h0 := congrFun h ValueIdx.ix0
  dsimp only [Cert.Pre_finite_inputs.fn, Cert.Pre_finite_inputs.fn_part1, Cert.Pre_finite_inputs.fn_part2, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ _ _ e0, all_real a1 _ _ _ _ _ e1, all_real a2 _ _ _ _ _ e2, all_real a3 _ _ _ _ _ e3,
    all_real a4 _ _ _ _ _ e4, all_real a5 _ _ _ _ _ e5, all_real a6 _ _ _ _ _ e6, all_real a7 _ _ _ _ _ e7⟩

end Cert.Gcn

end
-- ==== Proof.RunValue.lean ====
/-
  The kernel program's run with its RESULT named.

  The program is four pallas_calls among two stretches of host operations. Every weakly fair execution terminates without
  a fault, and every buffer that is not scoped ends at the contents the last boundary of the fold through the six
  segments gives it; read at the eight arguments this is the frame claim (they end as launched), and read at the result
  buffer it says the result ends at what the last region's write-backs leave there.
-/
import proofs.«179112_g29712583753982_cont_8to1_b_47_12_alg».proof.Proof.Gen.KernelIdeal.Frame

set_option maxRecDepth 16384

noncomputable section

namespace Cert.Gcn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last boundary's
    contents and the arguments end as launched. -/
theorem run_result : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.Gcn.Run

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibKeepdims.lean ====
/-
  Layout operations of a row-reduced block, read at an index by coordinates.

  A kernel that reduces an [a, b] block along its rows and uses the result against the block again (a row maximum
  subtracted, a row sum divided by) passes it through three re-layings: the reduced vector [a] is cast to a column
  [a, 1], and the column is broadcast back over the b lanes to [a, b]. A pipelined block of a rank-4 array with two
  leading unit axes is cast to the matrix [a, b] it holds, and a matrix result is cast back. Each lemma reads one of
  these at an index written by its coordinates; none depends on a program.
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes to [a, b] reads, at (i, j), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A block [1, 1, a, b] cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- A matrix [a, b] cast to the block [1, 1, a, b] reads, at (u, w, i, j), the matrix at (i, j). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

end Idealize.ShloMosaic.Keepdims

end
-- ==== Proof.Payload.lean ====
/-
  The four bodies' arithmetic, entry by entry, over the extended reals.

  Each body's stored value is one pure function of the blocks it loads. Read at an entry (r, j) of the block, with every
  change of float format the identity and every matrix product the finite sum over its contracted coordinate:
    * the first body stores (x · W)(r, j) = Σₖ x(r, k) · W(k, j);
    * the two middle bodies store Σₖ relu (Σₗ a(r, l) · s(l, k) + b(0, k)) · W(k, j), for the rows a of the adjacency the block holds;
    * the last body forms h(r, j) = Σₗ a(r, l) · s(l, j) + b(0, j), the row maximum M(r) folded from minus infinity, and stores
      h(r, j) − (log Σⱼ' exp (h(r, j') − M(r)) + M(r)).
-/
import proofs.«179112_g29712583753982_cont_8to1_b_47_12_alg».proof.Proof.Gen.KernelIdeal.Skeleton
import proofs.«179112_g29712583753982_cont_8to1_b_47_12_alg».proof.Proof.Spec
import proofs.«179112_g29712583753982_cont_8to1_b_47_12_alg».proof.Proof.LibPlainDot
import proofs.«179112_g29712583753982_cont_8to1_b_47_12_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Pay

open Idealize.ShloMosaic Idealize.ShloMosaic.ValueIdx Cert.KernelIdeal Cert.KernelIdeal.Gen Cert.Gcn

/-! ## The printed dimension numbers are the plain ones -/

theorem dot_xw : dot_S10000x128_S128x64_S10000x64_1_0_0_1_n_n = DotDims.plain 10000 128 64 := rfl
theorem dot_adj64 : dot_S400x10000_S10000x64_S400x64_1_0_0_1_n_n = DotDims.plain 400 10000 64 := rfl
theorem dot_w64 : dot_S400x64_S64x64_S400x64_1_0_0_1_n_n = DotDims.plain 400 64 64 := rfl
theorem dot_w16 : dot_S400x64_S64x16_S400x16_1_0_0_1_n_n = DotDims.plain 400 64 16 := rfl
theorem dot_adj16 : dot_S400x10000_S10000x16_S400x16_1_0_0_1_n_n = DotDims.plain 400 10000 16 := rfl

/-! ## The first body: x · W -/

theorem xw_entry (v0 : FVec Ideal S10000x128 .f32) (v2 : FVec Ideal S128x64 .bf16) (r : Fin 10000) (j : Fin 64) :
    k0_pay1 (F := Ideal) v0 v2 (ix2 r j) = ∑ k : Fin 128, v0 (ix2 r k) * v2 (ix2 k j) := by
  unfold k0_pay1
  simp only [shapeCast_self, dot_xw]
  exact PlainDot.matmul_apply_ix2 none _ _ r j

/-! ## A hidden layer's entry and the two middle bodies -/

/-- relu (Σₗ a(r, l) · s(l, k) + b(0, k)) for the block of rows `a`. -/
def hid (a : FVec Ideal S400x10000 .bf16) (s : FVec Ideal S10000x64 .bf16) (b : FVec Ideal S1x64 .f32) (r : Fin 400) (k : Fin 64) : EReal :=
  max (∑ l : Fin 10000, a (ix2 r l) * s (ix2 l k) + b (ix2 (0 : Fin 1) k)) zeroF

theorem hid_entry (a : FVec Ideal S400x10000 .bf16) (s : FVec Ideal S10000x64 .bf16) (b : FVec Ideal S1x64 .f32) (r : Fin 400) (k : Fin 64) :
    maximumf (addf (matmul dot_S400x10000_S10000x64_S400x64_1_0_0_1_n_n none a s (constant S400x64 .f32 0x00000000#32))
        (broadcastTo S400x64 b broadcasts_S1x64_S400x64)) (broadcast S400x64 (Scalar.ofBits .f32 0x00000000#32)) (ix2 r k)
      = hid a s b r k := by
  rw [maximumf_apply, addf_apply, broadcast_apply, broadcastTo_1b_ab_apply]
  simp only [dot_adj64]
  rw [show matmul (DotDims.plain 400 10000 64) none a s (constant S400x64 .f32 0x00000000#32) (ix2 r k)
      = ∑ l : Fin 10000, a (ix2 r l) * s (ix2 l k) from PlainDot.matmul_apply_ix2 none a s r k]
  rfl

theorem first_layer_entry (v0 : FVec Ideal S400x10000 .f32) (v3 : FVec Ideal S10000x64 .bf16) (v6 : FVec Ideal S1x64 .f32)
    (v13 : FVec Ideal S64x64 .bf16) (r : Fin 400) (j : Fin 64) :
    k1_pay2 (F := Ideal) v0 v3 v6 v13 (ix2 r j) = ∑ k : Fin 64, hid v0 v3 v6 r k * v13 (ix2 k j) := by
  unfold k1_pay2 k1_pay1
  simp only [shapeCast_self, dot_w64]
  refine (PlainDot.matmul_apply_ix2 none _ _ r j).trans ?_
  refine Finset.sum_congr rfl fun k _ => ?_
  exact congrArg (· * v13 (ix2 k j)) (hid_entry v0 v3 v6 r k)

theorem adj_copy_entry (v0 : FVec Ideal S400x10000 .f32) (i : S400x10000.Idx) : k1_pay1 (F := Ideal) v0 i = v0 i := rfl

theorem mid_layer_entry (v0 : FVec Ideal S400x10000 .bf16) (v2 : FVec Ideal S10000x64 .bf16) (v5 : FVec Ideal S1x64 .f32)
    (v12 : FVec Ideal S64x16 .bf16) (r : Fin 400) (j : Fin 16) :
    k2_pay1 (F := Ideal) v0 v2 v5 v12 (ix2 r j) = ∑ k : Fin 64, hid v0 v2 v5 r k * v12 (ix2 k j) := by
  unfold k2_pay1
  simp only [shapeCast_self, dot_w16]
  refine (PlainDot.matmul_apply_ix2 none _ _ r j).trans ?_
  refine Finset.sum_congr rfl fun k _ => ?_
  exact congrArg (· * v12 (ix2 k j)) (hid_entry v0 v2 v5 r k)

/-! ## The last body: the logits and their row-wise log-softmax -/

/-- Σₗ a(r, l) · s(l, j) + b(0, j) for the block of rows `a`. -/
def lgt (a : FVec Ideal S400x10000 .bf16) (s : FVec Ideal S10000x16 .bf16) (b : FVec Ideal S1x16 .f32) (r : Fin 400) (j : Fin 16) : EReal :=
  ∑ l : Fin 10000, a (ix2 r l) * s (ix2 l j) + b (ix2 (0 : Fin 1) j)

/-- The maximum of row `r` of the block's logits, folded from minus infinity. -/
def lgtMax (a : FVec Ideal S400x10000 .bf16) (s : FVec Ideal S10000x16 .bf16) (b : FVec Ideal S1x16 .f32) (r : Fin 400) : EReal :=
  (Finset.univ : Finset (Fin 16)).fold max negInfF (fun k => lgt a s b r k)

theorem lgt_entry (a : FVec Ideal S400x10000 .bf16) (s : FVec Ideal S10000x16 .bf16) (b : FVec Ideal S1x16 .f32) (r : Fin 400) (j : Fin 16) :
    addf (matmul dot_S400x10000_S10000x16_S400x16_1_0_0_1_n_n none a s (constant S400x16 .f32 0x00000000#32))
        (broadcastTo S400x16 b broadcasts_S1x16_S400x16) (ix2 r j)
      = lgt a s b r j := by
  rw [addf_apply, broadcastTo_1b_ab_apply]
  simp only [dot_adj16]
  rw [show matmul (DotDims.plain 400 10000 16) none a s (constant S400x16 .f32 0x00000000#32) (ix2 r j)
      = ∑ l : Fin 10000, a (ix2 r l) * s (ix2 l j) from PlainDot.matmul_apply_ix2 none a s r j]
  rfl

/-- The index a row reduction of a 400 × 16 block inserts at row `r`, lane `k`. -/
theorem lift_eq (r : Fin 400) (k : Fin 16) : reduces_S400x16_S400.lift (ix1 r) k = ix2 r k :=
  funext fun a => Fin.ext (by match a with | ⟨0, _⟩ => rfl | ⟨1, _⟩ => rfl)

/-- A row sum of a 400 × 16 block. -/
theorem rowSum_entry (x : FVec Ideal S400x16 .f32) (r : Fin 400) :
    multiReduction .add [1] S400 x 0x00000000#32 reduces_S400x16_S400 (.inl rfl) rfl (ix1 r) = ∑ k : Fin 16, x (ix2 r k) :=
  (Ideal.multiReduction_add_single x 0x00000000#32 reduces_S400x16_S400 (.inl rfl) rfl (ix1 r)).trans
    (Finset.sum_congr rfl fun k _ => congrArg x (lift_eq r k))

/-- A row maximum of a 400 × 16 block, folded from minus infinity. -/
theorem rowMax_entry (x : FVec Ideal S400x16 .f32) (r : Fin 400) :
    multiReduction .maximumf [1] S400 x 0xFF800000#32 reduces_S400x16_S400 (.inl rfl) rfl (ix1 r)
      = (Finset.univ : Finset (Fin 16)).fold max negInfF (fun k => x (ix2 r k)) :=
  (Ideal.multiReduction_maximumf_single x 0xFF800000#32 reduces_S400x16_S400 (.inl rfl) rfl (ix1 r)).trans
    (congrArg (fun f : Fin 16 → EReal => (Finset.univ : Finset (Fin 16)).fold max negInfF f)
      (funext fun k => congrArg x (lift_eq r k)))

/-- The body's log-softmax of a block `h` at an entry: `h(r, j) − (log Σⱼ' exp (h(r, j') − M) + M)`, `M` the row's maximum. -/
theorem lsm_entry (h : FVec Ideal S400x16 .f32) (r : Fin 400) (j : Fin 16) :
    subf h (broadcastTo S400x16
        (addf (log (shapeCast S400x1
            (multiReduction .add [1] S400
              (exp (subf h (broadcastTo S400x16
                (shapeCast S400x1 (multiReduction .maximumf [1] S400 h 0xFF800000#32 reduces_S400x16_S400 (.inl rfl) rfl) shapeCasts_S400_S400x1)
                broadcasts_S400x1_S400x16)))
              0x00000000#32 reduces_S400x16_S400 (.inl rfl) rfl) shapeCasts_S400_S400x1))
          (shapeCast S400x1 (multiReduction .maximumf [1] S400 h 0xFF800000#32 reduces_S400x16_S400 (.inl rfl) rfl) shapeCasts_S400_S400x1))
        broadcasts_S400x1_S400x16) (ix2 r j)
      = h (ix2 r j) - (Ideal.log (∑ k : Fin 16, Ideal.exp (h (ix2 r k) - (Finset.univ : Finset (Fin 16)).fold max negInfF (fun k => h (ix2 r k))))
          + (Finset.univ : Finset (Fin 16)).fold max negInfF (fun k => h (ix2 r k))) := by
  rw [subf_apply, Keepdims.broadcastTo_a1_ab_apply, addf_apply]
  show h (ix2 r j) - (Ideal.log (shapeCast S400x1 _ shapeCasts_S400_S400x1 (ix2 r (0 : Fin 1))) + shapeCast S400x1 _ shapeCasts_S400_S400x1 (ix2 r (0 : Fin 1))) = _
  rw [Keepdims.shapeCast_a_a1_apply, Keepdims.shapeCast_a_a1_apply, rowSum_entry, rowMax_entry]
  refine congrArg (fun z => h (ix2 r j) - (Ideal.log z + _)) (Finset.sum_congr rfl fun k _ => ?_)
  show Ideal.exp (subf h _ (ix2 r k)) = _
  rw [subf_apply, Keepdims.broadcastTo_a1_ab_apply, Keepdims.shapeCast_a_a1_apply, rowMax_entry]

theorem last_layer_entry (v0 : FVec Ideal S400x10000 .bf16) (v2 : FVec Ideal S10000x16 .bf16) (v5 : FVec Ideal S1x16 .f32)
    (r : Fin 400) (j : Fin 16) :
    k3_pay1 (F := Ideal) v0 v2 v5 (ix2 r j)
      = lgt v0 v2 v5 r j - (Ideal.log (∑ k : Fin 16, Ideal.exp (lgt v0 v2 v5 r k - lgtMax v0 v2 v5 r)) + lgtMax v0 v2 v5 r) := by
  unfold k3_pay1
  simp only [shapeCast_self]
  refine (lsm_entry _ r j).trans ?_
  simp only [lgt_entry]
  rfl

end Cert.Gcn.Pay

end
-- ==== Proof.Region0.lean ====
/-
  The first pallas_call (the first projection `x · W₁`), as a function of the buffers it finds.

  There is no grid: the one point holds the whole feature matrix (10000 × 128) and the whole weight matrix (128 × 64) and
  writes back the whole product (10000 × 64). A block is the whole array, at block index 0 in every coordinate, so an index of
  the block is the same index of the array, and the single block covers the array. An entry (r, j) of what is written is the
  sum over the 128 contracted coordinates of row r of the features times column j of the weights.
-/
import proofs.«179112_g29712583753982_cont_8to1_b_47_12_alg».proof.Proof.Gen.KernelIdeal.Frame
import proofs.«179112_g29712583753982_cont_8to1_b_47_12_alg».proof.Proof.Payload

noncomputable section

namespace Cert.Gcn.R0

open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Every window's block index is 0 in both coordinates. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem emb0 (t : Fin cfg0.N) (r : Fin 10000) (k : Fin 128) : ((cfg0.win 0).blk t).view.emb (ix2 r k) = ix2 r k := by
  obtain ⟨e0, e1, -⟩ := idx_facts t
  funext a; apply Fin.ext
  match a with
  | ⟨0, _⟩ => show win0_0.index t (0 : Fin 2) * 10000 + 1 * r.val = r.val; omega
  | ⟨1, _⟩ => show win0_0.index t (1 : Fin 2) * 128 + 1 * k.val = k.val; omega

theorem emb1 (t : Fin cfg0.N) (k : Fin 128) (j : Fin 64) : ((cfg0.win 1).blk t).view.emb (ix2 k j) = ix2 k j := by
  obtain ⟨-, -, e0, e1, -⟩ := idx_facts t
  funext a; apply Fin.ext
  match a with
  | ⟨0, _⟩ => show win0_1.index t (0 : Fin 2) * 128 + 1 * k.val = k.val; omega
  | ⟨1, _⟩ => show win0_1.index t (1 : Fin 2) * 64 + 1 * j.val = j.val; omega

theorem emb2 (t : Fin cfg0.N) (r : Fin 10000) (j : Fin 64) : ((cfg0.win 2).blk t).view.emb (ix2 r j) = ix2 r j := by
  obtain ⟨-, -, -, -, e0, e1⟩ := idx_facts t
  funext a; apply Fin.ext
  match a with
  | ⟨0, _⟩ => show win0_2.index t (0 : Fin 2) * 10000 + 1 * r.val = r.val; omega
  | ⟨1, _⟩ => show win0_2.index t (1 : Fin 2) * 64 + 1 * j.val = j.val; omega

/-- The projected matrix, from the arrays the region finds. -/
abbrev G2 (c : Dev nD) : Mat 10000 64 := xw (V c main_arg0) (V c main_call0_v0)

/-- What the one point writes back through the output window is the whole projected matrix. -/
theorem flushed2_eq (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  funext y
  obtain ⟨r, j, rfl⟩ : ∃ (r : Fin 10000) (j : Fin 64), y = ix2 r j := ⟨y 0, y 1, eq_ix2 y⟩
  show k0_pay1 (F := Ideal) (iblk0 V c 0 t) (iblk0 V c 1 t) (ix2 r j)
    = xw (V c main_arg0) (V c main_call0_v0) (((cfg0.win 2).blk t).view.emb (ix2 r j))
  rw [emb2, xw, ofEntries_ix2]
  refine (Pay.xw_entry _ _ r j).trans (Finset.sum_congr rfl fun k _ => ?_)
  have h0 : iblk0 V c 0 t (ix2 r k) = V c main_arg0 (ix2 r k) := by
    show V c main_arg0 (((cfg0.win 0).blk t).view.emb (ix2 r k)) = _
    rw [emb0]
  have h1 : iblk0 V c 1 t (ix2 k j) = V c main_call0_v0 (ix2 k j) := by
    show V c main_call0_v0 (((cfg0.win 1).blk t).view.emb (ix2 k j)) = _
    rw [emb1]
  rw [h0, h1]

/-- An index of the output's array is in the block iff each coordinate is in the block's range. -/
theorem mem_blk2 (t : Fin cfg0.N) (i : S10000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_call0_v3).slice (win0_2.rect t)).set ↔ _
  rw [View.set_slice_whole, Rect.mem_set_unit]
  exact Iff.rfl

/-- Every index lies in the one block. -/
theorem cover2 (i : S10000x64.Idx) : ∃ t : Fin cfg0.N, (cfg0.win 2).flush t = true ∧ i ∈ ((cfg0.win 2).blk t).view.set := by
  have hi0 : (i 0).val < 10000 := idx2_lt0 i
  have hi1 : (i 1).val < 64 := idx2_lt1 i
  have hN : cfg0.N = 1 := N_0
  let t : Fin cfg0.N := ⟨0, by omega⟩
  obtain ⟨-, -, -, -, e0, e1⟩ := idx_facts t
  refine ⟨t, flush0_2 t, ?_⟩
  rw [mem_blk2]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the output array is the projection of the arrays it found. -/
theorem final2 (c : Dev nD) : (dat0 V c).arrAt 2 cfg0.N = xw (V c main_arg0) (V c main_call0_v0) :=
  (dat0 V c).arrAt_eq_of_cover 2 (G2 V c) (fun t _ => flushed2_eq V c t) cover2

end Cert.Gcn.R0

end
-- ==== Proof.Region1.lean ====
/-
  The second pallas_call (the first graph-convolution layer), as a function of the buffers it finds.

  The grid has 25 points; point t holds rows 400·t … 400·t + 399 of the adjacency (a 400 × 10000 block), the whole
  support matrix, bias row and weight matrix, and writes back a 400 × 64 block of the next support matrix and a copy of the
  adjacency block. An entry (r, j) of the written block is the layer's entry at row 400·t + r of the whole arrays, so the
  25 blocks together are the whole matrix `layer adj s b W`, and the copied blocks together are the adjacency itself.
-/
import proofs.«179112_g29712583753982_cont_8to1_b_47_12_alg».proof.Proof.Gen.KernelIdeal.Frame
import proofs.«179112_g29712583753982_cont_8to1_b_47_12_alg».proof.Proof.Payload

noncomputable section

namespace Cert.Gcn.R1

open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block indices of the six windows at a grid point: the adjacency and both outputs move with the point along the
    rows, the other three stay at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `r` of point `t`'s block is row `400·t + r` of the array. -/
def row (t : Fin cfg1.N) (r : Fin 400) : Fin 10000 :=
  ⟨t.val * 400 + r.val, by have := t.isLt; have hN : cfg1.N = 25 := N_1; have := r.isLt; omega⟩

theorem emb0 (t : Fin cfg1.N) (r : Fin 400) (l : Fin 10000) : ((cfg1.win 0).blk t).view.emb (ix2 r l) = ix2 (row t r) l := by
  obtain ⟨e0, e1, -⟩ := idx_facts t
  funext a; apply Fin.ext
  match a with
  | ⟨0, _⟩ => show win1_0.index t (0 : Fin 2) * 400 + 1 * r.val = t.val * 400 + r.val; omega
  | ⟨1, _⟩ => show win1_0.index t (1 : Fin 2) * 10000 + 1 * l.val = l.val; omega

theorem emb1 (t : Fin cfg1.N) (l : Fin 10000) (k : Fin 64) : ((cfg1.win 1).blk t).view.emb (ix2 l k) = ix2 l k := by
  obtain ⟨-, -, e0, e1, -⟩ := idx_facts t
  funext a; apply Fin.ext
  match a with
  | ⟨0, _⟩ => show win1_1.index t (0 : Fin 2) * 10000 + 1 * l.val = l.val; omega
  | ⟨1, _⟩ => show win1_1.index t (1 : Fin 2) * 64 + 1 * k.val = k.val; omega

theorem emb2 (t : Fin cfg1.N) (u : Fin 1) (k : Fin 64) : ((cfg1.win 2).blk t).view.emb (ix2 u k) = ix2 u k := by
  obtain ⟨-, -, -, -, e0, e1, -⟩ := idx_facts t
  funext a; apply Fin.ext
  match a with
  | ⟨0, _⟩ => show win1_2.index t (0 : Fin 2) * 1 + 1 * u.val = u.val; omega
  | ⟨1, _⟩ => show win1_2.index t (1 : Fin 2) * 64 + 1 * k.val = k.val; omega

theorem emb3 (t : Fin cfg1.N) (k j : Fin 64) : ((cfg1.win 3).blk t).view.emb (ix2 k j) = ix2 k j := by
  obtain ⟨-, -, -, -, -, -, e0, e1, -⟩ := idx_facts t
  funext a; apply Fin.ext
  match a with
  | ⟨0, _⟩ => show win1_3.index t (0 : Fin 2) * 64 + 1 * k.val = k.val; omega
  | ⟨1, _⟩ => show win1_3.index t (1 : Fin 2) * 64 + 1 * j.val = j.val; omega

theorem emb4 (t : Fin cfg1.N) (r : Fin 400) (j : Fin 64) : ((cfg1.win 4).blk t).view.emb (ix2 r j) = ix2 (row t r) j := by
  obtain ⟨-, -, -, -, -, -, -, -, e0, e1, -⟩ := idx_facts t
  funext a; apply Fin.ext
  match a with
  | ⟨0, _⟩ => show win1_4.index t (0 : Fin 2) * 400 + 1 * r.val = t.val * 400 + r.val; omega
  | ⟨1, _⟩ => show win1_4.index t (1 : Fin 2) * 64 + 1 * j.val = j.val; omega

theorem emb5 (t : Fin cfg1.N) (r : Fin 400) (l : Fin 10000) : ((cfg1.win 5).blk t).view.emb (ix2 r l) = ix2 (row t r) l := by
  obtain ⟨-, -, -, -, -, -, -, -, -, -, e0, e1⟩ := idx_facts t
  funext a; apply Fin.ext
  match a with
  | ⟨0, _⟩ => show win1_5.index t (0 : Fin 2) * 400 + 1 * r.val = t.val * 400 + r.val; omega
  | ⟨1, _⟩ => show win1_5.index t (1 : Fin 2) * 10000 + 1 * l.val = l.val; omega

/-- The next support matrix, from the arrays the region finds. -/
abbrev G4 (c : Dev nD) : Mat 10000 64 :=
  layer (n := 64) (V c main_arg1) (V c main_call0_v3) (fun k => V c main_call0_v4 (ix2 (0 : Fin 1) k)) (V c main_call0_v1)

/-- What point `t` writes back through the first output window is block `t` of the layer's matrix. -/
theorem flushed4_eq (c : Dev nD) (t : Fin cfg1.N) :
    (dat1 V c).flushed 4 t = ((cfg1.win 4).blk t).view.read (Elt Ideal) (G4 V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x64) hz, View.ld_unit_zero (S := S1x64) hz,
    View.ld_unit_zero (S := S64x64) hz]
  funext y
  obtain ⟨r, j, rfl⟩ : ∃ (r : Fin 400) (j : Fin 64), y = ix2 r j := ⟨y 0, y 1, eq_ix2 y⟩
  show k1_pay2 (F := Ideal) (iblk1 V c 0 t) (iblk1 V c 1 t) (iblk1 V c 2 t) (iblk1 V c 3 t) (ix2 r j)
    = G4 V c (((cfg1.win 4).blk t).view.emb (ix2 r j))
  rw [emb4]
  refine (Pay.first_layer_entry _ _ _ _ r j).trans ?_
  show _ = ∑ k : Fin 64, hidden (V c main_arg1) (V c main_call0_v3) (fun k => V c main_call0_v4 (ix2 (0 : Fin 1) k)) (row t r) k
    * V c main_call0_v1 (ix2 k j)
  refine Finset.sum_congr rfl fun k _ => ?_
  have h3 : iblk1 V c 3 t (ix2 k j) = V c main_call0_v1 (ix2 k j) := by
    show V c main_call0_v1 (((cfg1.win 3).blk t).view.emb (ix2 k j)) = _
    rw [emb3]
  have h2 : iblk1 V c 2 t (ix2 (0 : Fin 1) k) = V c main_call0_v4 (ix2 (0 : Fin 1) k) := by
    show V c main_call0_v4 (((cfg1.win 2).blk t).view.emb (ix2 (0 : Fin 1) k)) = _
    rw [emb2]
  have h0 : ∀ l : Fin 10000, iblk1 V c 0 t (ix2 r l) = V c main_arg1 (ix2 (row t r) l) := fun l => by
    show V c main_arg1 (((cfg1.win 0).blk t).view.emb (ix2 r l)) = _
    rw [emb0]
  have h1 : ∀ l : Fin 10000, iblk1 V c 1 t (ix2 l k) = V c main_call0_v3 (ix2 l k) := fun l => by
    show V c main_call0_v3 (((cfg1.win 1).blk t).view.emb (ix2 l k)) = _
    rw [emb1]
  rw [h3]
  refine congrArg (· * V c main_call0_v1 (ix2 k j)) ?_
  unfold Pay.hid hidden
  rw [h2]
  exact congrArg (fun z => max (z + V c main_call0_v4 (ix2 (0 : Fin 1) k)) zeroF)
    (Finset.sum_congr rfl fun l _ => by rw [h0 l, h1 l])

/-- What point `t` writes back through the second output window is block `t` of the adjacency. -/
theorem flushed5_eq (c : Dev nD) (t : Fin cfg1.N) :
    (dat1 V c).flushed 5 t = ((cfg1.win 5).blk t).view.read (Elt Ideal) (V c main_arg1) := by
  show (cfg1.win 5).cut (grid1.coords t) ((dat1 V c).after 5 t) = _
  rw [after1_5]
  unfold out1_5
  rw [View.canon_unit_zero hz]
  simp only [View.ld_unit_zero (S := S400x10000) hz]
  funext y
  obtain ⟨r, l, rfl⟩ : ∃ (r : Fin 400) (l : Fin 10000), y = ix2 r l := ⟨y 0, y 1, eq_ix2 y⟩
  show V c main_arg1 (((cfg1.win 0).blk t).view.emb (ix2 r l)) = V c main_arg1 (((cfg1.win 5).blk t).view.emb (ix2 r l))
  rw [emb0, emb5]

/-- An index of the first output's array is in point `t`'s block iff each coordinate is in the block's range. -/
theorem mem_blk4 (t : Fin cfg1.N) (i : S10000x64.Idx) :
    i ∈ ((cfg1.win 4).blk t).view.set ↔ ∀ a : Fin 2, win1_4.index t a * S400x64.size a ≤ (i a).val
      ∧ (i a).val < win1_4.index t a * S400x64.size a + S400x64.size a := by
  show i ∈ ((View.whole main_call0_v7_0).slice (win1_4.rect t)).set ↔ _
  rw [View.set_slice_whole, Rect.mem_set_unit]
  exact Iff.rfl

theorem mem_blk5 (t : Fin cfg1.N) (i : S10000x10000.Idx) :
    i ∈ ((cfg1.win 5).blk t).view.set ↔ ∀ a : Fin 2, win1_5.index t a * S400x10000.size a ≤ (i a).val
      ∧ (i a).val < win1_5.index t a * S400x10000.size a + S400x10000.size a := by
  show i ∈ ((View.whole main_call0_v7_1).slice (win1_5.rect t)).set ↔ _
  rw [View.set_slice_whole, Rect.mem_set_unit]
  exact Iff.rfl

/-- Row `i₀` lies in the block of point `i₀ / 400`. -/
theorem cover4 (i : S10000x64.Idx) : ∃ t : Fin cfg1.N, (cfg1.win 4).flush t = true ∧ i ∈ ((cfg1.win 4).blk t).view.set := by
  have hi0 : (i 0).val < 10000 := idx2_lt0 i
  have hi1 : (i 1).val < 64 := idx2_lt1 i
  have hN : cfg1.N = 25 := N_1
  let t : Fin cfg1.N := ⟨(i 0).val / 400, by omega⟩
  have ht : t.val = (i 0).val / 400 := rfl
  obtain ⟨-, -, -, -, -, -, -, -, e0, e1, -⟩ := idx_facts t
  refine ⟨t, flush1_4 t, ?_⟩
  rw [mem_blk4]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 64 ≤ (i 1).val ∧ (i 1).val < win1_4.index t (1 : Fin 2) * 64 + 64; omega

theorem cover5 (i : S10000x10000.Idx) : ∃ t : Fin cfg1.N, (cfg1.win 5).flush t = true ∧ i ∈ ((cfg1.win 5).blk t).view.set := by
  have hi0 : (i 0).val < 10000 := idx2_lt0 i
  have hi1 : (i 1).val < 10000 := idx2_lt1 i
  have hN : cfg1.N = 25 := N_1
  let t : Fin cfg1.N := ⟨(i 0).val / 400, by omega⟩
  have ht : t.val = (i 0).val / 400 := rfl
  obtain ⟨-, -, -, -, -, -, -, -, -, -, e0, e1⟩ := idx_facts t
  refine ⟨t, flush1_5 t, ?_⟩
  rw [mem_blk5]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 10000 ≤ (i 1).val ∧ (i 1).val < win1_5.index t (1 : Fin 2) * 10000 + 10000; omega

/-- After the region the first output array is the layer's matrix of the arrays it found. -/
theorem final4 (c : Dev nD) : (dat1 V c).arrAt 4 cfg1.N = G4 V c :=
  (dat1 V c).arrAt_eq_of_cover 4 (G4 V c) (fun t _ => flushed4_eq V c t) cover4

/-- After the region the second output array is the adjacency it found. -/
theorem final5 (c : Dev nD) : (dat1 V c).arrAt 5 cfg1.N = V c main_arg1 :=
  (dat1 V c).arrAt_eq_of_cover 5 (V c main_arg1) (fun t _ => flushed5_eq V c t) cover5

end Cert.Gcn.R1

end
-- ==== Proof.Region2.lean ====
/-
  The third pallas_call (the second graph-convolution layer followed by the last projection), as a function of the buffers it
  finds.

  The grid has 25 points; point t holds rows 400·t … 400·t + 399 of the adjacency copy (a 400 × 10000 block), the whole
  support matrix (10000 × 64), the bias row (1 × 64) and the weight matrix (64 × 16), and writes back a 400 × 16 block of the
  next support matrix. An entry (r, j) of the written block is the layer's entry at row 400·t + r of the whole arrays: it
  depends on row 400·t + r of the adjacency, on all of the support matrix and the bias, and on column j of the weights. So the
  25 blocks together are the whole matrix `layer adj s b W`, here with 16 columns.
-/
import proofs.«179112_g29712583753982_cont_8to1_b_47_12_alg».proof.Proof.Gen.KernelIdeal.Frame
import proofs.«179112_g29712583753982_cont_8to1_b_47_12_alg».proof.Proof.Payload

noncomputable section

namespace Cert.Gcn.R2

open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block indices of the five windows at a grid point: the adjacency copy and the output move with the point along the
    rows, the other three stay at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `r` of point `t`'s block is row `400·t + r` of the array. -/
def row (t : Fin cfg2.N) (r : Fin 400) : Fin 10000 :=
  ⟨t.val * 400 + r.val, by have := t.isLt; have hN : cfg2.N = 25 := N_2; have := r.isLt; omega⟩

theorem emb0 (t : Fin cfg2.N) (r : Fin 400) (l : Fin 10000) : ((cfg2.win 0).blk t).view.emb (ix2 r l) = ix2 (row t r) l := by
  obtain ⟨e0, e1, -⟩ := idx_facts t
  funext a; apply Fin.ext
  match a with
  | ⟨0, _⟩ => show win2_0.index t (0 : Fin 2) * 400 + 1 * r.val = t.val * 400 + r.val; omega
  | ⟨1, _⟩ => show win2_0.index t (1 : Fin 2) * 10000 + 1 * l.val = l.val; omega

theorem emb1 (t : Fin cfg2.N) (l : Fin 10000) (k : Fin 64) : ((cfg2.win 1).blk t).view.emb (ix2 l k) = ix2 l k := by
  obtain ⟨-, -, e0, e1, -⟩ := idx_facts t
  funext a; apply Fin.ext
  match a with
  | ⟨0, _⟩ => show win2_1.index t (0 : Fin 2) * 10000 + 1 * l.val = l.val; omega
  | ⟨1, _⟩ => show win2_1.index t (1 : Fin 2) * 64 + 1 * k.val = k.val; omega

theorem emb2 (t : Fin cfg2.N) (u : Fin 1) (k : Fin 64) : ((cfg2.win 2).blk t).view.emb (ix2 u k) = ix2 u k := by
  obtain ⟨-, -, -, -, e0, e1, -⟩ := idx_facts t
  funext a; apply Fin.ext
  match a with
  | ⟨0, _⟩ => show win2_2.index t (0 : Fin 2) * 1 + 1 * u.val = u.val; omega
  | ⟨1, _⟩ => show win2_2.index t (1 : Fin 2) * 64 + 1 * k.val = k.val; omega

theorem emb3 (t : Fin cfg2.N) (k : Fin 64) (j : Fin 16) : ((cfg2.win 3).blk t).view.emb (ix2 k j) = ix2 k j := by
  obtain ⟨-, -, -, -, -, -, e0, e1, -⟩ := idx_facts t
  funext a; apply Fin.ext
  match a with
  | ⟨0, _⟩ => show win2_3.index t (0 : Fin 2) * 64 + 1 * k.val = k.val; omega
  | ⟨1, _⟩ => show win2_3.index t (1 : Fin 2) * 16 + 1 * j.val = j.val; omega

theorem emb4 (t : Fin cfg2.N) (r : Fin 400) (j : Fin 16) : ((cfg2.win 4).blk t).view.emb (ix2 r j) = ix2 (row t r) j := by
  obtain ⟨-, -, -, -, -, -, -, -, e0, e1⟩ := idx_facts t
  funext a; apply Fin.ext
  match a with
  | ⟨0, _⟩ => show win2_4.index t (0 : Fin 2) * 400 + 1 * r.val = t.val * 400 + r.val; omega
  | ⟨1, _⟩ => show win2_4.index t (1 : Fin 2) * 16 + 1 * j.val = j.val; omega

/-- The next support matrix (16 columns), from the arrays the region finds. -/
abbrev G4 (c : Dev nD) : Mat 10000 16 :=
  layer (n := 16) (V c main_call0_v7_1) (V c main_call0_v7_0) (fun k => V c main_call0_v5 (ix2 (0 : Fin 1) k)) (V c main_call0_v2)

/-- What point `t` writes back through the output window is block `t` of the layer's matrix. -/
theorem flushed4_eq (c : Dev nD) (t : Fin cfg2.N) :
    (dat2 V c).flushed 4 t = ((cfg2.win 4).blk t).view.read (Elt Ideal) (G4 V c) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x64) hz, View.ld_unit_zero (S := S1x64) hz,
    View.ld_unit_zero (S := S64x16) hz]
  funext y
  obtain ⟨r, j, rfl⟩ : ∃ (r : Fin 400) (j : Fin 16), y = ix2 r j := ⟨y 0, y 1, eq_ix2 y⟩
  show k2_pay1 (F := Ideal) (iblk2 V c 0 t) (iblk2 V c 1 t) (iblk2 V c 2 t) (iblk2 V c 3 t) (ix2 r j)
    = G4 V c (((cfg2.win 4).blk t).view.emb (ix2 r j))
  rw [emb4]
  refine (Pay.mid_layer_entry _ _ _ _ r j).trans ?_
  show _ = ∑ k : Fin 64, hidden (V c main_call0_v7_1) (V c main_call0_v7_0) (fun k => V c main_call0_v5 (ix2 (0 : Fin 1) k)) (row t r) k
    * V c main_call0_v2 (ix2 k j)
  refine Finset.sum_congr rfl fun k _ => ?_
  have h3 : iblk2 V c 3 t (ix2 k j) = V c main_call0_v2 (ix2 k j) := by
    show V c main_call0_v2 (((cfg2.win 3).blk t).view.emb (ix2 k j)) = _
    rw [emb3]
  have h2 : iblk2 V c 2 t (ix2 (0 : Fin 1) k) = V c main_call0_v5 (ix2 (0 : Fin 1) k) := by
    show V c main_call0_v5 (((cfg2.win 2).blk t).view.emb (ix2 (0 : Fin 1) k)) = _
    rw [emb2]
  have h0 : ∀ l : Fin 10000, iblk2 V c 0 t (ix2 r l) = V c main_call0_v7_1 (ix2 (row t r) l) := fun l => by
    show V c main_call0_v7_1 (((cfg2.win 0).blk t).view.emb (ix2 r l)) = _
    rw [emb0]
  have h1 : ∀ l : Fin 10000, iblk2 V c 1 t (ix2 l k) = V c main_call0_v7_0 (ix2 l k) := fun l => by
    show V c main_call0_v7_0 (((cfg2.win 1).blk t).view.emb (ix2 l k)) = _
    rw [emb1]
  rw [h3]
  refine congrArg (· * V c main_call0_v2 (ix2 k j)) ?_
  unfold Pay.hid hidden
  rw [h2]
  exact congrArg (fun z => max (z + V c main_call0_v5 (ix2 (0 : Fin 1) k)) zeroF)
    (Finset.sum_congr rfl fun l _ => by rw [h0 l, h1 l])

/-- An index of the output's array is in point `t`'s block iff each coordinate is in the block's range. -/
theorem mem_blk4 (t : Fin cfg2.N) (i : S10000x16.Idx) :
    i ∈ ((cfg2.win 4).blk t).view.set ↔ ∀ a : Fin 2, win2_4.index t a * S400x16.size a ≤ (i a).val
      ∧ (i a).val < win2_4.index t a * S400x16.size a + S400x16.size a := by
  show i ∈ ((View.whole main_call0_v8).slice (win2_4.rect t)).set ↔ _
  rw [View.set_slice_whole, Rect.mem_set_unit]
  exact Iff.rfl

/-- Row `i₀` lies in the block of point `i₀ / 400`. -/
theorem cover4 (i : S10000x16.Idx) : ∃ t : Fin cfg2.N, (cfg2.win 4).flush t = true ∧ i ∈ ((cfg2.win 4).blk t).view.set := by
  have hi0 : (i 0).val < 10000 := idx2_lt0 i
  have hi1 : (i 1).val < 16 := idx2_lt1 i
  have hN : cfg2.N = 25 := N_2
  let t : Fin cfg2.N := ⟨(i 0).val / 400, by omega⟩
  have ht : t.val = (i 0).val / 400 := rfl
  obtain ⟨-, -, -, -, -, -, -, -, e0, e1⟩ := idx_facts t
  refine ⟨t, flush2_4 t, ?_⟩
  rw [mem_blk4]
  intro a
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 16 ≤ (i 1).val ∧ (i 1).val < win2_4.index t (1 : Fin 2) * 16 + 16; omega

/-- After the region the output array is the layer's matrix of the arrays it found. -/
theorem final4 (c : Dev nD) : (dat2 V c).arrAt 4 cfg2.N
    = layer (n := 16) (V c main_call0_v7_1) (V c main_call0_v7_0) (fun k => V c main_call0_v5 (ix2 (0 : Fin 1) k)) (V c main_call0_v2) :=
  (dat2 V c).arrAt_eq_of_cover 4 (G4 V c) (fun t _ => flushed4_eq V c t) cover4

end Cert.Gcn.R2

end
-- ==== Proof.Region3.lean ====
/-
  The fourth pallas_call (the last graph-convolution layer and the log-softmax), as a function of the buffers it finds.

  The grid has 25 points; point t holds rows 400·t … 400·t + 399 of the adjacency copy (a 400 × 10000 block), the whole
  support matrix (10000 × 16) and the bias row, and writes back a 400 × 16 block of the result. An entry (r, j) of the block's
  logits is the entry at row 400·t + r of `adj · s + b`; a row of a block is a whole row of that matrix (all sixteen
  columns), so the row's maximum and its log-sum-exp are those of the matrix's row, and the written entry is the
  log-softmax `h − (L + M)` of the matrix at (400·t + r, j). The 25 blocks together are the whole result.
-/
import proofs.«179112_g29712583753982_cont_8to1_b_47_12_alg».proof.Proof.Gen.KernelIdeal.Frame
import proofs.«179112_g29712583753982_cont_8to1_b_47_12_alg».proof.Proof.Payload

noncomputable section

namespace Cert.Gcn.R3

open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block indices of the four windows at a grid point: the adjacency copy and the output move with the point along
    the rows, the support matrix and the bias row stay at the origin. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `r` of point `t`'s block is row `400·t + r` of the array. -/
def row (t : Fin cfg3.N) (r : Fin 400) : Fin 10000 :=
  ⟨t.val * 400 + r.val, by have := t.isLt; have hN : cfg3.N = 25 := N_3; have := r.isLt; omega⟩

theorem emb0 (t : Fin cfg3.N) (r : Fin 400) (l : Fin 10000) : ((cfg3.win 0).blk t).view.emb (ix2 r l) = ix2 (row t r) l := by
  obtain ⟨e0, e1, -⟩ := idx_facts t
  funext a; apply Fin.ext
  match a with
  | ⟨0, _⟩ => show win3_0.index t (0 : Fin 2) * 400 + 1 * r.val = t.val * 400 + r.val; omega
  | ⟨1, _⟩ => show win3_0.index t (1 : Fin 2) * 10000 + 1 * l.val = l.val; omega

theorem emb1 (t : Fin cfg3.N) (l : Fin 10000) (k : Fin 16) : ((cfg3.win 1).blk t).view.emb (ix2 l k) = ix2 l k := by
  obtain ⟨-, -, e0, e1, -⟩ := idx_facts t
  funext a; apply Fin.ext
  match a with
  | ⟨0, _⟩ => show win3_1.index t (0 : Fin 2) * 10000 + 1 * l.val = l.val; omega
  | ⟨1, _⟩ => show win3_1.index t (1 : Fin 2) * 16 + 1 * k.val = k.val; omega

theorem emb2 (t : Fin cfg3.N) (u : Fin 1) (k : Fin 16) : ((cfg3.win 2).blk t).view.emb (ix2 u k) = ix2 u k := by
  obtain ⟨-, -, -, -, e0, e1, -⟩ := idx_facts t
  funext a; apply Fin.ext
  match a with
  | ⟨0, _⟩ => show win3_2.index t (0 : Fin 2) * 1 + 1 * u.val = u.val; omega
  | ⟨1, _⟩ => show win3_2.index t (1 : Fin 2) * 16 + 1 * k.val = k.val; omega

theorem emb3 (t : Fin cfg3.N) (r : Fin 400) (j : Fin 16) : ((cfg3.win 3).blk t).view.emb (ix2 r j) = ix2 (row t r) j := by
  obtain ⟨-, -, -, -, -, -, e0, e1⟩ := idx_facts t
  funext a; apply Fin.ext
  match a with
  | ⟨0, _⟩ => show win3_3.index t (0 : Fin 2) * 400 + 1 * r.val = t.val * 400 + r.val; omega
  | ⟨1, _⟩ => show win3_3.index t (1 : Fin 2) * 16 + 1 * j.val = j.val; omega

/-- The logits, from the arrays the region finds. -/
abbrev H (c : Dev nD) : Mat 10000 16 :=
  logits (V c main_call0_v7_1) (V c main_call0_v8) (fun k => V c main_call0_v6 (ix2 (0 : Fin 1) k))

/-- An entry of the logits. -/
theorem logits_ix2 (adj : Mat 10000 10000) (s : Mat 10000 16) (b : Fin 16 → EReal) (r : Fin 10000) (j : Fin 16) :
    logits adj s b (ix2 r j) = ∑ l : Fin 10000, adj (ix2 r l) * s (ix2 l j) + b j := rfl

/-- A block's logit at (r, k) is the matrix's at (400·t + r, k). -/
theorem lgt_eq (c : Dev nD) (t : Fin cfg3.N) (r : Fin 400) (k : Fin 16) :
    Pay.lgt (iblk3 V c 0 t) (iblk3 V c 1 t) (iblk3 V c 2 t) r k = H V c (ix2 (row t r) k) := by
  have h2 : iblk3 V c 2 t (ix2 (0 : Fin 1) k) = V c main_call0_v6 (ix2 (0 : Fin 1) k) := by
    show V c main_call0_v6 (((cfg3.win 2).blk t).view.emb (ix2 (0 : Fin 1) k)) = _
    rw [emb2]
  have h0 : ∀ l : Fin 10000, iblk3 V c 0 t (ix2 r l) = V c main_call0_v7_1 (ix2 (row t r) l) := fun l => by
    show V c main_call0_v7_1 (((cfg3.win 0).blk t).view.emb (ix2 r l)) = _
    rw [emb0]
  have h1 : ∀ l : Fin 10000, iblk3 V c 1 t (ix2 l k) = V c main_call0_v8 (ix2 l k) := fun l => by
    show V c main_call0_v8 (((cfg3.win 1).blk t).view.emb (ix2 l k)) = _
    rw [emb1]
  unfold Pay.lgt H
  rw [logits_ix2, h2]
  simp only [h0, h1]

/-- What point `t` writes back is block `t` of the log-softmax of the logits. -/
theorem flushed3_eq (c : Dev nD) (t : Fin cfg3.N) :
    (dat3 V c).flushed 3 t = ((cfg3.win 3).blk t).view.read (Elt Ideal) (logSoftmaxK (H V c)) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x16) hz, View.ld_unit_zero (S := S1x16) hz]
  funext y
  obtain ⟨r, j, rfl⟩ : ∃ (r : Fin 400) (j : Fin 16), y = ix2 r j := ⟨y 0, y 1, eq_ix2 y⟩
  show k3_pay1 (F := Ideal) (iblk3 V c 0 t) (iblk3 V c 1 t) (iblk3 V c 2 t) (ix2 r j)
    = logSoftmaxK (H V c) (((cfg3.win 3).blk t).view.emb (ix2 r j))
  rw [emb3]
  refine (Pay.last_layer_entry _ _ _ r j).trans ?_
  unfold Pay.lgtMax
  simp only [lgt_eq]
  generalize H V c = h
  rfl

/-- An index of the output's array is in point `t`'s block iff each coordinate is in the block's range. -/
theorem mem_blk3 (t : Fin cfg3.N) (i : S10000x16.Idx) :
    i ∈ ((cfg3.win 3).blk t).view.set ↔ ∀ a : Fin 2, win3_3.index t a * S400x16.size a ≤ (i a).val
      ∧ (i a).val < win3_3.index t a * S400x16.size a + S400x16.size a := by
  show i ∈ ((View.whole main_v0).slice (win3_3.rect t)).set ↔ _
  rw [View.set_slice_whole, Rect.mem_set_unit]
  exact Iff.rfl

/-- Row `i₀` lies in the block of point `i₀ / 400`. -/
theorem cover3 (i : S10000x16.Idx) : ∃ t : Fin cfg3.N, (cfg3.win 3).flush t = true ∧ i ∈ ((cfg3.win 3).blk t).view.set := by
  have hi0 : (i 0).val < 10000 := idx2_lt0 i
  have hi1 : (i 1).val < 16 := idx2_lt1 i
  have hN : cfg3.N = 25 := N_3
  let t : Fin cfg3.N := ⟨(i 0).val / 400, by omega⟩
  have ht : t.val = (i 0).val / 400 := rfl
  obtain ⟨-, -, -, -, -, -, e0, e1⟩ := idx_facts t
  refine ⟨t, flush3_3 t, ?_⟩
  rw [mem_blk3]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 16 ≤ (i 1).val ∧ (i 1).val < win3_3.index t (1 : Fin 2) * 16 + 16; omega

/-- After the region the result array is the log-softmax of the logits of the arrays it found. -/
theorem final3 (c : Dev nD) : (dat3 V c).arrAt 3 cfg3.N
    = logSoftmaxK (logits (V c main_call0_v7_1) (V c main_call0_v8) (fun k => V c main_call0_v6 (ix2 (0 : Fin 1) k))) :=
  (dat3 V c).arrAt_eq_of_cover 3 (logSoftmaxK (H V c)) (fun t _ => flushed3_eq V c t) cover3

end Cert.Gcn.R3

end
-- ==== Proof.Chain.lean ====
/-
  The value the kernel program leaves in its result buffer, as a function of the launch contents.

  The program is six segments: a host stretch that converts the three weight matrices to a narrower float format (the
  identity on the extended reals), the first region (the projection x · W₁), a host stretch that reshapes the three bias
  vectors to one-row matrices (entry (0, k) of the reshaped array is entry k of the vector), and three more regions: the
  two hidden layers, each followed by the next projection, and the last layer with the row-wise log-softmax. Each
  segment rewrites the buffers it writes and leaves every other buffer as it was; the second region also copies the
  adjacency into a buffer of its own, which the last two regions read. Following each buffer the next segment reads back
  through the segments before it expresses it in the launch contents; substituting upward gives the log-softmax of
  `net` of the eight inputs. Every step is a named equation between whole arrays or at one symbolic index; no array is
  ever evaluated.
-/
import proofs.«179112_g29712583753982_cont_8to1_b_47_12_alg».proof.Proof.Gen.KernelIdeal.Frame
import proofs.«179112_g29712583753982_cont_8to1_b_47_12_alg».proof.Proof.Spec
import proofs.«179112_g29712583753982_cont_8to1_b_47_12_alg».proof.Proof.Region0
import proofs.«179112_g29712583753982_cont_8to1_b_47_12_alg».proof.Proof.Region1
import proofs.«179112_g29712583753982_cont_8to1_b_47_12_alg».proof.Proof.Region2
import proofs.«179112_g29712583753982_cont_8to1_b_47_12_alg».proof.Proof.Region3
import Idealize.ShloMosaic.Lib.ValueLayout

noncomputable section

namespace Cert.Gcn.Chain

open Idealize.ShloMosaic Idealize.ShloMosaic.ValueIdx Idealize.ShloMosaic.TcCoe Idealize.SL.Sem
open Cert.KernelIdeal Cert.KernelIdeal.Gen Cert.Gcn

/-! ### Equal arguments give equal layers -/

theorem xw_congr {x x' : Mat 10000 128} {w w' : Mat 128 64} (hx : x = x') (hw : w = w') : xw x w = xw x' w' := by
  subst hx hw; rfl

theorem layer_congr {n : Nat} {adj adj' : Mat 10000 10000} {s s' : Mat 10000 64} {b b' : Fin 64 → EReal} {w w' : Mat 64 n}
    (hadj : adj = adj') (hs : s = s') (hb : b = b') (hw : w = w') : layer adj s b w = layer adj' s' b' w' := by
  subst hadj hs hb hw; rfl

theorem logits_congr {adj adj' : Mat 10000 10000} {s s' : Mat 10000 16} {b b' : Fin 16 → EReal}
    (hadj : adj = adj') (hs : s = s') (hb : b = b') : logits adj s b = logits adj' s' b' := by
  subst hadj hs hb; rfl

variable (m : (ℓ : Loc nD τ sig) → Buf (Elt Ideal) ℓ) (ρ : Dev nD → PrngReg) (c : Dev nD)

/-! ### After the first host stretch: the three weight matrices converted, everything else as launched -/

theorem V1_arg0 : V1 m ρ c main_arg0 = m ((c : Thread nD τ).loc main_arg0) := by
  show StableHlo.after hostOps0 (W0 m ρ c) (Proc.devRef .tc main_arg0) = _
  after_results
theorem V1_arg1 : V1 m ρ c main_arg1 = m ((c : Thread nD τ).loc main_arg1) := by
  show StableHlo.after hostOps0 (W0 m ρ c) (Proc.devRef .tc main_arg1) = _
  after_results
theorem V1_arg3 : V1 m ρ c main_arg3 = m ((c : Thread nD τ).loc main_arg3) := by
  show StableHlo.after hostOps0 (W0 m ρ c) (Proc.devRef .tc main_arg3) = _
  after_results
theorem V1_arg5 : V1 m ρ c main_arg5 = m ((c : Thread nD τ).loc main_arg5) := by
  show StableHlo.after hostOps0 (W0 m ρ c) (Proc.devRef .tc main_arg5) = _
  after_results
theorem V1_arg7 : V1 m ρ c main_arg7 = m ((c : Thread nD τ).loc main_arg7) := by
  show StableHlo.after hostOps0 (W0 m ρ c) (Proc.devRef .tc main_arg7) = _
  after_results

/-- On the extended reals the conversion to the narrower format is the identity. -/
theorem V1_v0 : (V1 m ρ c main_call0_v0 : Mat 128 64) = m ((c : Thread nD τ).loc main_arg2) := by
  show (StableHlo.after hostOps0 (W0 m ρ c) (Proc.devRef .tc main_call0_v0) : Mat 128 64) = _
  after_results
  rfl
theorem V1_v1 : (V1 m ρ c main_call0_v1 : Mat 64 64) = m ((c : Thread nD τ).loc main_arg4) := by
  show (StableHlo.after hostOps0 (W0 m ρ c) (Proc.devRef .tc main_call0_v1) : Mat 64 64) = _
  after_results
  rfl
theorem V1_v2 : (V1 m ρ c main_call0_v2 : Mat 64 16) = m ((c : Thread nD τ).loc main_arg6) := by
  show (StableHlo.after hostOps0 (W0 m ρ c) (Proc.devRef .tc main_call0_v2) : Mat 64 16) = _
  after_results
  rfl

/-! ### After the first region: the first projection is in place -/

theorem V2_v3 : (V2 m ρ c main_call0_v3 : Mat 10000 64)
    = xw (m ((c : Thread nD τ).loc main_arg0)) (m ((c : Thread nD τ).loc main_arg2)) :=
  (W2_arr m ρ c 2).trans ((R0.final2 (V1 m ρ) c).trans (xw_congr (V1_arg0 m ρ c) (V1_v0 m ρ c)))

theorem V2_arg1 : V2 m ρ c main_arg1 = m ((c : Thread nD τ).loc main_arg1) :=
  (W2_of_ne m ρ c main_arg1 (by decide)).trans (V1_arg1 m ρ c)
theorem V2_arg3 : V2 m ρ c main_arg3 = m ((c : Thread nD τ).loc main_arg3) :=
  (W2_of_ne m ρ c main_arg3 (by decide)).trans (V1_arg3 m ρ c)
theorem V2_arg5 : V2 m ρ c main_arg5 = m ((c : Thread nD τ).loc main_arg5) :=
  (W2_of_ne m ρ c main_arg5 (by decide)).trans (V1_arg5 m ρ c)
theorem V2_arg7 : V2 m ρ c main_arg7 = m ((c : Thread nD τ).loc main_arg7) :=
  (W2_of_ne m ρ c main_arg7 (by decide)).trans (V1_arg7 m ρ c)
theorem V2_v1 : (V2 m ρ c main_call0_v1 : Mat 64 64) = m ((c : Thread nD τ).loc main_arg4) :=
  (W2_of_ne m ρ c main_call0_v1 (by decide)).trans (V1_v1 m ρ c)
theorem V2_v2 : (V2 m ρ c main_call0_v2 : Mat 64 16) = m ((c : Thread nD τ).loc main_arg6) :=
  (W2_of_ne m ρ c main_call0_v2 (by decide)).trans (V1_v2 m ρ c)

/-! ### After the second host stretch: the three bias vectors reshaped to one-row matrices -/

theorem V3_arg1 : V3 m ρ c main_arg1 = m ((c : Thread nD τ).loc main_arg1) := by
  refine Eq.trans ?_ (V2_arg1 m ρ c)
  show StableHlo.after hostOps1 (W2 m ρ c) (Proc.devRef .tc main_arg1) = _
  after_results
theorem V3_v3 : (V3 m ρ c main_call0_v3 : Mat 10000 64)
    = xw (m ((c : Thread nD τ).loc main_arg0)) (m ((c : Thread nD τ).loc main_arg2)) := by
  refine Eq.trans ?_ (V2_v3 m ρ c)
  show StableHlo.after hostOps1 (W2 m ρ c) (Proc.devRef .tc main_call0_v3) = _
  after_results
theorem V3_v1 : (V3 m ρ c main_call0_v1 : Mat 64 64) = m ((c : Thread nD τ).loc main_arg4) := by
  refine Eq.trans ?_ (V2_v1 m ρ c)
  show StableHlo.after hostOps1 (W2 m ρ c) (Proc.devRef .tc main_call0_v1) = _
  after_results
theorem V3_v2 : (V3 m ρ c main_call0_v2 : Mat 64 16) = m ((c : Thread nD τ).loc main_arg6) := by
  refine Eq.trans ?_ (V2_v2 m ρ c)
  show StableHlo.after hostOps1 (W2 m ρ c) (Proc.devRef .tc main_call0_v2) = _
  after_results

/-- Entry `(0, k)` of the reshaped bias is entry `k` of the vector. -/
theorem V3_v4 (k : Fin 64) :
    V3 m ρ c main_call0_v4 (ix2 (0 : Fin 1) k) = m ((c : Thread nD τ).loc main_arg3) (ix1 k) := by
  have e : StableHlo.after hostOps1 (W2 m ρ c) (Proc.devRef .tc main_call0_v4)
      = shapeCast S1x64 (W2 m ρ c (Proc.devRef .tc main_arg3)) shapeCasts_S64_S1x64 := by
    after_results
    rfl
  show StableHlo.after hostOps1 (W2 m ρ c) (Proc.devRef .tc main_call0_v4) (ix2 (0 : Fin 1) k) = _
  rw [e]
  exact (shapeCast_a_1a_apply _ _ _ _).trans (congrFun (V2_arg3 m ρ c) (ix1 k))
theorem V3_v5 (k : Fin 64) :
    V3 m ρ c main_call0_v5 (ix2 (0 : Fin 1) k) = m ((c : Thread nD τ).loc main_arg5) (ix1 k) := by
  have e : StableHlo.after hostOps1 (W2 m ρ c) (Proc.devRef .tc main_call0_v5)
      = shapeCast S1x64 (W2 m ρ c (Proc.devRef .tc main_arg5)) shapeCasts_S64_S1x64 := by
    after_results
    rfl
  show StableHlo.after hostOps1 (W2 m ρ c) (Proc.devRef .tc main_call0_v5) (ix2 (0 : Fin 1) k) = _
  rw [e]
  exact (shapeCast_a_1a_apply _ _ _ _).trans (congrFun (V2_arg5 m ρ c) (ix1 k))
theorem V3_v6 (k : Fin 16) :
    V3 m ρ c main_call0_v6 (ix2 (0 : Fin 1) k) = m ((c : Thread nD τ).loc main_arg7) (ix1 k) := by
  have e : StableHlo.after hostOps1 (W2 m ρ c) (Proc.devRef .tc main_call0_v6)
      = shapeCast S1x16 (W2 m ρ c (Proc.devRef .tc main_arg7)) shapeCasts_S16_S1x16 := by
    after_results
    rfl
  show StableHlo.after hostOps1 (W2 m ρ c) (Proc.devRef .tc main_call0_v6) (ix2 (0 : Fin 1) k) = _
  rw [e]
  exact (shapeCast_a_1a_apply _ _ _ _).trans (congrFun (V2_arg7 m ρ c) (ix1 k))

/-! ### After the second region: the first hidden layer, and a copy of the adjacency -/

/-- The second support matrix, in terms of the launch contents. -/
abbrev s2 : Mat 10000 64 :=
  layer (n := 64) (m ((c : Thread nD τ).loc main_arg1))
    (xw (m ((c : Thread nD τ).loc main_arg0)) (m ((c : Thread nD τ).loc main_arg2)))
    (fun k => m ((c : Thread nD τ).loc main_arg3) (ix1 k)) (m ((c : Thread nD τ).loc main_arg4))

theorem V4_v7_0 : (V4 m ρ c main_call0_v7_0 : Mat 10000 64) = s2 m c :=
  (W4_arr m ρ c 4).trans ((R1.final4 (V3 m ρ) c).trans
    (layer_congr (V3_arg1 m ρ c) (V3_v3 m ρ c) (funext (V3_v4 m ρ c)) (V3_v1 m ρ c)))

theorem V4_v7_1 : (V4 m ρ c main_call0_v7_1 : Mat 10000 10000) = m ((c : Thread nD τ).loc main_arg1) :=
  (W4_arr m ρ c 5).trans ((R1.final5 (V3 m ρ) c).trans (V3_arg1 m ρ c))

theorem V4_v2 : (V4 m ρ c main_call0_v2 : Mat 64 16) = m ((c : Thread nD τ).loc main_arg6) :=
  (W4_of_ne m ρ c main_call0_v2 (by decide)).trans (V3_v2 m ρ c)
theorem V4_v5 (k : Fin 64) :
    V4 m ρ c main_call0_v5 (ix2 (0 : Fin 1) k) = m ((c : Thread nD τ).loc main_arg5) (ix1 k) :=
  (congrFun (W4_of_ne m ρ c main_call0_v5 (by decide)) (ix2 (0 : Fin 1) k)).trans (V3_v5 m ρ c k)
theorem V4_v6 (k : Fin 16) :
    V4 m ρ c main_call0_v6 (ix2 (0 : Fin 1) k) = m ((c : Thread nD τ).loc main_arg7) (ix1 k) :=
  (congrFun (W4_of_ne m ρ c main_call0_v6 (by decide)) (ix2 (0 : Fin 1) k)).trans (V3_v6 m ρ c k)

/-! ### After the third region: the second hidden layer -/

/-- The third support matrix, in terms of the launch contents. -/
abbrev s3 : Mat 10000 16 :=
  layer (n := 16) (m ((c : Thread nD τ).loc main_arg1)) (s2 m c)
    (fun k => m ((c : Thread nD τ).loc main_arg5) (ix1 k)) (m ((c : Thread nD τ).loc main_arg6))

theorem V5_v8 : (V5 m ρ c main_call0_v8 : Mat 10000 16) = s3 m c :=
  (W5_arr m ρ c 4).trans ((R2.final4 (V4 m ρ) c).trans
    (layer_congr (V4_v7_1 m ρ c) (V4_v7_0 m ρ c) (funext (V4_v5 m ρ c)) (V4_v2 m ρ c)))

/-- The adjacency copy is an input window of the third region: the region leaves it as it found it. -/
theorem V5_v7_1 : (V5 m ρ c main_call0_v7_1 : Mat 10000 10000) = m ((c : Thread nD τ).loc main_arg1) :=
  (W5_arr m ρ c 0).trans ((((dat2 (V4 m ρ) c).arrAt_in 0 rfl _).trans (A_eq2 (V4 m ρ) c 0)).trans (V4_v7_1 m ρ c))

theorem V5_v6 (k : Fin 16) :
    V5 m ρ c main_call0_v6 (ix2 (0 : Fin 1) k) = m ((c : Thread nD τ).loc main_arg7) (ix1 k) :=
  (congrFun (W5_of_ne m ρ c main_call0_v6 (by decide)) (ix2 (0 : Fin 1) k)).trans (V4_v6 m ρ c k)

/-! ### After the last region: the log-softmax of the network's output -/

theorem kernel_value :
    W6 (F := Ideal) m ρ c (Proc.devRef .tc main_v0)
      = logSoftmaxK (net (m ((c : Thread nD τ).loc main_arg0)) (m ((c : Thread nD τ).loc main_arg1)) (m ((c : Thread nD τ).loc main_arg2))
          (fun k => m ((c : Thread nD τ).loc main_arg3) (ix1 k)) (m ((c : Thread nD τ).loc main_arg4))
          (fun k => m ((c : Thread nD τ).loc main_arg5) (ix1 k)) (m ((c : Thread nD τ).loc main_arg6))
          (fun k => m ((c : Thread nD τ).loc main_arg7) (ix1 k))) :=
  (W6_arr m ρ c 3).trans ((R3.final3 (V5 m ρ) c).trans
    (congrArg logSoftmaxK (logits_congr (V5_v7_1 m ρ c) (V5_v8 m ρ c) (funext (V5_v6 m ρ c)))))

end Cert.Gcn.Chain

end
-- ==== Proof.lean ====
/-
  A three-layer graph-convolution network over a dense 10000 × 10000 adjacency, ending in a row-wise log-softmax: the
  kernel program (four pallas_calls: the first projection, two fused layers streaming the adjacency in blocks of 400 rows,
  and a last layer fused with the log-softmax) against the plain reference.

  On the extended reals every change of float format is the identity and every matrix product is the finite sum over its
  contracted coordinate. Both programs associate the products in the same way, so up to the logits h = adj · s₃ + b₃ they
  are the same sums (Spec.lean: `net`). The kernel's blocks are rows 400·t … 400·t + 399 of each matrix, and an entry of
  a block depends only on that row of the adjacency and on whole small matrices, so the blocks of the 25 grid points are
  the rows of one matrix (Region0–3.lean), and the four regions chain through the buffers between them (Chain.lean). The
  reference's stages are read at an index one operation at a time (RefValue.lean).
  The two programs arrange the log-softmax differently: with M a row's maximum and L = log Σ exp (h − M), one stores
  h − (L + M), the other (h − M) − L. These agree when h and M are finite and may differ at infinities; the logits of
  finite inputs are finite (Algebra.lean), and the inputs are finite by the precondition (FiniteInputs.lean). That is the
  one place the precondition is used.
  The idealization rewrote nothing, so `preserves` is trivial; the three frames are the generated frame of each kernel
  program and the reference's run with its result dropped.
-/
import proofs.«179112_g29712583753982_cont_8to1_b_47_12_alg».proof.Defs
import proofs.«179112_g29712583753982_cont_8to1_b_47_12_alg».proof.Proof.Gen.Kernel
import proofs.«179112_g29712583753982_cont_8to1_b_47_12_alg».proof.Proof.Gen.Kernel.Skeleton
import proofs.«179112_g29712583753982_cont_8to1_b_47_12_alg».proof.Proof.Gen.Kernel.Launch
import proofs.«179112_g29712583753982_cont_8to1_b_47_12_alg».proof.Proof.Gen.Kernel.Points
import proofs.«179112_g29712583753982_cont_8to1_b_47_12_alg».proof.Proof.Gen.Kernel.Frame
import proofs.«179112_g29712583753982_cont_8to1_b_47_12_alg».proof.Proof.Gen.KernelIdeal
import proofs.«179112_g29712583753982_cont_8to1_b_47_12_alg».proof.Proof.Gen.KernelIdeal.Skeleton
import proofs.«179112_g29712583753982_cont_8to1_b_47_12_alg».proof.Proof.Gen.KernelIdeal.Launch
import proofs.«179112_g29712583753982_cont_8to1_b_47_12_alg».proof.Proof.Gen.KernelIdeal.Points
import proofs.«179112_g29712583753982_cont_8to1_b_47_12_alg».proof.Proof.Gen.KernelIdeal.Frame
import proofs.«179112_g29712583753982_cont_8to1_b_47_12_alg».proof.Proof.Gen.ReferenceIdeal
import proofs.«179112_g29712583753982_cont_8to1_b_47_12_alg».proof.Proof.Gen.Pre_finite_inputs
import proofs.«179112_g29712583753982_cont_8to1_b_47_12_alg».proof.Proof.RefRun
import proofs.«179112_g29712583753982_cont_8to1_b_47_12_alg».proof.Proof.RefRead
import proofs.«179112_g29712583753982_cont_8to1_b_47_12_alg».proof.Proof.RefValue
import proofs.«179112_g29712583753982_cont_8to1_b_47_12_alg».proof.Proof.Algebra
import proofs.«179112_g29712583753982_cont_8to1_b_47_12_alg».proof.Proof.FiniteInputs
import proofs.«179112_g29712583753982_cont_8to1_b_47_12_alg».proof.Proof.RunValue
import proofs.«179112_g29712583753982_cont_8to1_b_47_12_alg».proof.Proof.Chain
import Idealize.ShloMosaic.Adequacy
import Idealize.ShloMosaic.Init

noncomputable section

namespace Cert.Proof

open Idealize.ShloMosaic Idealize.ShloMosaic.TcCoe Idealize.SL.Sem Idealize.ShloMosaic.ValueIdx Cert.Gcn

/-- The network's result as a function of the kernel program's argument arrays: the log-softmax (written `h − (L + M)`) of
    the three layers' logits. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v0) :=
  logSoftmaxK (net (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (fun k => m ((c.tc : Thread Cert.KernelIdeal.nD Cert.KernelIdeal.τ).loc Cert.KernelIdeal.main_arg3) (ix1 k))
    (m ((c.tc : Thread Cert.KernelIdeal.nD Cert.KernelIdeal.τ).loc Cert.KernelIdeal.main_arg4))
    (fun k => m ((c.tc : Thread Cert.KernelIdeal.nD Cert.KernelIdeal.τ).loc Cert.KernelIdeal.main_arg5) (ix1 k))
    (m ((c.tc : Thread Cert.KernelIdeal.nD Cert.KernelIdeal.τ).loc Cert.KernelIdeal.main_arg6))
    (fun k => m ((c.tc : Thread Cert.KernelIdeal.nD Cert.KernelIdeal.τ).loc Cert.KernelIdeal.main_arg7) (ix1 k)))

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at `result` of the arguments: the kernel program by the chain through its four regions, the
    reference by its stages read back, the two arrangements of the log-softmax joined at the finite logits. -/
theorem algebraic : Cert.algebraic_KernelIdeal_ReferenceIdeal := by
  intro m ρ m' ρ' hpre hagree
  refine ⟨result m, ?_, ?_⟩
  · exact (θ_run Cert.KernelIdeal.defs _ _).mono
      (fun r h c => ⟨(h c).1.trans (Cert.Gcn.Chain.kernel_value m ρ c), (h c).2⟩)
      (Cert.Gcn.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    obtain ⟨f0, f1, f2, f3, f4, f5, f6, f7⟩ := Cert.Gcn.finite_of_pre _ _ _ _ _ _ _ _ (hpre c)
    rw [Cert.ReferenceIdeal.Read.val_main_v19_eq, Cert.Gcn.ref_value, a0, a1, a2, a3, a4, a5, a6, a7]
    exact (logSoftmaxK_eq_R _ (net_finite _ _ _ _ _ _ _ _ f0 f1 f2 (fun k => f3 (ix1 k)) f4 (fun k => f5 (ix1 k)) f6
      (fun k => f7 (ix1 k)))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
